-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x19 : Shape := ⟨2, ![128, 19]⟩
abbrev S19 : Shape := ⟨1, ![19]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x19 : S_.BroadcastsInDim S128x19 (![] : Fin 0 → Fin S128x19.rank)
  reducesTo_S128x19_S_d0_1 : S128x19.ReducesTo [0, 1] S_
  bcast_S_S19 : S_.BroadcastsInDim S19 (![] : Fin 0 → Fin S19.rank)
  reducesTo_S19_S_d0 : S19.ReducesTo [0] S_

variable [Facts]

def fn_part2 {F : FTy → Type} [FloatOps F] (main_arg9 : FVec F S128x19 .f32) (main_arg10 : FVec F S19 .f32) (main_v33 : IVec S_ 1) : IVec S_ 1 :=
  let main_v34 : FVec F S128x19 .f32 := Host.absf main_arg9
  let main_cst_12 : FVec F S_ .f32 := constant S_ .f32 0x7F800000#32
  let main_v35 : FVec F S128x19 .f32 := broadcastInDim S128x19 ![] bcast_S_S128x19 main_cst_12
  let main_v36 : IVec S128x19 1 := cmpf .olt main_v34 main_v35
  let main_c_13 : IVec S_ 1 := constantI S_ 1 1#1
  let main_v37 : IVec S_ 1 := (fun x v => Host.reduce IntOp.andi x v reducesTo_S128x19_S_d0_1 h_S_) main_v36 main_c_13
  let main_v38 : IVec S_ 1 := andi main_v33 main_v37
  let main_v39 : FVec F S19 .f32 := Host.absf main_arg10
  let main_cst_14 : FVec F S_ .f32 := constant S_ .f32 0x7F800000#32
  let main_v40 : FVec F S19 .f32 := broadcastInDim S19 ![] bcast_S_S19 main_cst_14
  let main_v41 : IVec S19 1 := cmpf .olt main_v39 main_v40
  let main_c_15 : IVec S_ 1 := constantI S_ 1 1#1
  let main_v42 : IVec S_ 1 := (fun x v => Host.reduce IntOp.andi x v reducesTo_S19_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x19 .f32) (main_arg10 : FVec F S19 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x11 .f32) (main_arg1 : IVec S2x1600000 32) (main_arg2 : IVec S100000 32) (main_arg3 : FVec F S11x128 .f32) (main_arg4 : FVec F S128 .f32) (main_arg5 : FVec F S128x128 .f32) (main_arg6 : FVec F S128 .f32) (main_arg7 : FVec F S128x128 .f32) (main_arg8 : FVec F S128 .f32) (main_arg9 : FVec F S128x19 .f32) (main_arg10 : FVec F S19 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x128 .f32 := Host.absf main_arg3
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x19 : Shape := ⟨2, ![128, 19]⟩
abbrev S19 : Shape := ⟨1, ![19]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x11 : Shape := ⟨2, ![5000, 11]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S5000 : Shape := ⟨1, ![5000]⟩
abbrev S1x19 : Shape := ⟨2, ![1, 19]⟩
abbrev S5000x19 : Shape := ⟨2, ![5000, 19]⟩

abbrev nBuf : Space → Nat
  | .hbm => 121
  | .vmem => 46
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S100000, .i32⟩
  | .hbm, ⟨3, _⟩ => ⟨S11x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x19, .f32⟩
  | .hbm, ⟨10, _⟩ => ⟨S19, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S1600000x1, .f32⟩
  | .hbm, ⟨95, _⟩ => ⟨S1600000x128, .f32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S_, .f32⟩
  | .hbm, ⟨104, _⟩ => ⟨S5000x128, .f32⟩
  | .hbm, ⟨105, _⟩ => ⟨S100000x1, .i32⟩
  | .hbm, ⟨106, _⟩ => ⟨S5000x128, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S5000, .f32⟩
  | .hbm, ⟨111, _⟩ => ⟨S100000x1, .i32⟩
  | .hbm, ⟨112, _⟩ => ⟨S5000, .f32⟩
  | .hbm, ⟨113, _⟩ => ⟨S_, .f32⟩
  | .hbm, ⟨114, _⟩ => ⟨S5000, .f32⟩
  | .hbm, ⟨115, _⟩ => ⟨S5000, .f32⟩
  | .hbm, ⟨116, _⟩ => ⟨S5000x1, .f32⟩
  | .hbm, ⟨117, _⟩ => ⟨S5000x128, .f32⟩
  | .hbm, ⟨118, _⟩ => ⟨S5000x128, .f32⟩
  | .hbm, ⟨119, _⟩ => ⟨S1x19, .f32⟩
  | .hbm, ⟨120, _⟩ => ⟨S5000x19, .f32⟩
  | .local _ .vmem, ⟨0, _⟩ => ⟨S5000x11, .f32⟩
  | .local _ .vmem, ⟨1, _⟩ => ⟨S5000x11, .f32⟩
  | .local _ .vmem, ⟨2, _⟩ => ⟨S11x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x19, .f32⟩
  | .local _ .vmem, ⟨44, _⟩ => ⟨S1x19, .f32⟩
  | .local _ .vmem, ⟨45, _⟩ => ⟨S5000x19, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S5000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x19 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x19 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S5000x19 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S5000x128 : S_.BroadcastsInDim S5000x128 (![] : Fin 0 → Fin S5000x128.rank)
  bcast_S100000_S100000x1_0 : S100000.BroadcastsInDim S100000x1 (![0] : Fin 1 → Fin S100000x1.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  shapeCasts_S19_S1x19 : S19.ShapeCasts S1x19
  inb_S128x19_S128x19_0_0 : ∀ a, (![0, 0] : Fin 2 → Nat) a + S128x19.size a ≤ S128x19.size a
  h_S128x19 : 0 < S128x19.numel
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S5000x19 : S1x19.Broadcasts S5000x19
  inb_S5000x19_S5000x19_0_0 : ∀ a, (![0, 0] : Fin 2 → Nat) a + S5000x19.size a ≤ S5000x19.size a
  h_S5000x19 : 0 < S5000x19.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x11_S11x128_S5000x128_1_0_0_1_n_n_wf : DotDims.WF S5000x11 S11x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S5000x128_S100000x1_S100000x128_1_0_0_1_wf : ScatterDims.WF S5000x128 S100000x1 S100000x128 [1] [0] [0] 1
  scatter_S5000_S100000x1_S100000_n_0_0_1_wf : ScatterDims.WF S5000 S100000x1 S100000 [] [0] [0] 1
  dot_S5000x128_S128x19_S5000x19_1_0_0_1_n_n_wf : DotDims.WF S5000x128 S128x19 S5000x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S5000x128.size a
  hwx6_0 : ∀ i : grid6.Coords, EltTy.bits .f32 = 32 ∨ (Rect.block (s := S5000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x19.size a ≤ S128x19.size a
  hwx6_1 : ∀ i : grid6.Coords, EltTy.bits .f32 = 32 ∨ (Rect.block (s := S128x19) S128x19.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x19.size a ≤ S1x19.size a
  hwx6_2 : ∀ i : grid6.Coords, EltTy.bits .f32 = 32 ∨ (Rect.block (s := S1x19) S1x19.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S5000x19.size a ≤ S5000x19.size a
  hwx6_3 : ∀ i : grid6.Coords, EltTy.bits .f32 = 32 ∨ (Rect.block (s := S5000x19) S5000x19.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x128_S128x19_S5000x19_1_0_0_1_n_n : DotDims S5000x128 S128x19 S5000x19 where
  lhsContracting := [1]
  rhsContracting := [0]
  lhsNonContracting := [0]
  rhsNonContracting := [1]
  lhsBatch := []
  rhsBatch := []
  wf := dot_S5000x128_S128x19_S5000x19_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v87) S5000x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x19.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x19.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S5000x19.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x19 : Shape := ⟨2, ![128, 19]⟩
abbrev S19 : Shape := ⟨1, ![19]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S5000x19 : Shape := ⟨2, ![5000, 19]⟩
abbrev S1x19 : Shape := ⟨2, ![1, 19]⟩

abbrev nBuf : Space → Nat
  | .hbm => 143
  | .vmem => 0
  | .smem => 0
  | _ => 0

abbrev hbmTy0_0 (i : Nat) : BufTy := match i % 128 with
  | 0 => ⟨S100000x11, .f32⟩
  | 1 => ⟨S2x1600000, .i32⟩
  | 2 => ⟨S100000, .i32⟩
  | 3 => ⟨S11x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x19, .f32⟩
  | 10 => ⟨S19, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x1, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S5000x128, .f32⟩
  | 125 => ⟨S100000x1, .i32⟩
  | 126 => ⟨S5000x128, .f32⟩
  | 127 => ⟨S_, .f32⟩
  | _ => ⟨S100000x11, .f32⟩

abbrev hbmTy0_1 (i : Nat) : BufTy := match i % 128 with
  | 0 => ⟨S100000, .f32⟩
  | 1 => ⟨S_, .f32⟩
  | 2 => ⟨S5000, .f32⟩
  | 3 => ⟨S100000x1, .i32⟩
  | 4 => ⟨S5000, .f32⟩
  | 5 => ⟨S_, .f32⟩
  | 6 => ⟨S5000, .f32⟩
  | 7 => ⟨S5000, .f32⟩
  | 8 => ⟨S5000x1, .f32⟩
  | 9 => ⟨S5000x128, .f32⟩
  | 10 => ⟨S5000x128, .f32⟩
  | 11 => ⟨S5000x19, .f32⟩
  | 12 => ⟨S1x19, .f32⟩
  | 13 => ⟨S5000x19, .f32⟩
  | 14 => ⟨S5000x19, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call1_cst : Ref sig .tc := ⟨.hbm, 96, rfl⟩
abbrev main_call1_v0 : Ref sig .tc := ⟨.hbm, 97, rfl⟩
abbrev main_v70 : Ref sig .tc := ⟨.hbm, 98, rfl⟩
abbrev main_v71 : Ref sig .tc := ⟨.hbm, 99, rfl⟩
abbrev main_c_11 : Ref sig .tc := ⟨.hbm, 100, rfl⟩
abbrev main_v72 : Ref sig .tc := ⟨.hbm, 101, rfl⟩
abbrev main_v73 : Ref sig .tc := ⟨.hbm, 102, rfl⟩
abbrev main_c_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_15 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S19_S1x19_1 : S19.BroadcastsInDim S1x19 (![1] : Fin 1 → Fin S1x19.rank)
  bcast_S1x19_S5000x19_0_1 : S1x19.BroadcastsInDim S5000x19 (![0, 1] : Fin 2 → Fin S5000x19.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x11_S11x128_S100000x128_1_0_0_1_n_n_wf : DotDims.WF S100000x11 S11x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S5000x128_S100000x1_S100000x128_1_0_0_1_wf : ScatterDims.WF S5000x128 S100000x1 S100000x128 [1] [0] [0] 1
  scatter_S5000_S100000x1_S100000_n_0_0_1_wf : ScatterDims.WF S5000 S100000x1 S100000 [] [0] [0] 1
  dot_S5000x128_S128x19_S5000x19_1_0_0_1_n_n_wf : DotDims.WF S5000x128 S128x19 S5000x19 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x128_S128x19_S5000x19_1_0_0_1_n_n : DotDims S5000x128 S128x19 S5000x19 where
  lhsContracting := [1]
  rhsContracting := [0]
  lhsNonContracting := [0]
  rhsNonContracting := [1]
  lhsBatch := []
  rhsBatch := []
  wf := dot_S5000x128_S128x19_S5000x19_1_0_0_1_n_n_wf

class Facts : Prop extends Facts₀ where

variable [Facts]
-- ==== Proof.KernelRun.lean ====
/-
  The kernel program's run with its result named.

  The program is seven tiled regions among stretches of host operations. Its buffers' contents at each boundary between
  two consecutive pieces form a chain from the launch memory: a host stretch applies its operations, a region replaces its
  windows' arrays by what the tiles wrote back. Every weakly fair execution ends with each unscoped buffer at the last
  link of that chain; read at the result buffer this names the program's result, and read at an argument it gives back
  the launch contents.
-/
import proofs.«129845_j5488968204990_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    every argument as launched. -/
theorem run : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Named

end
-- ==== Proof.Kept.lean ====
/-
  What each piece of the program leaves alone.

  The buffers' contents at the boundaries between the program's pieces form a chain from the launch memory. A stretch of
  host operations changes only the buffers its operations write; a tiled region changes only its output window's array
  (an input window's array is handed back as it was entered, a buffer the region has no window on is not touched). So a
  buffer read at a late boundary can be traced back, piece by piece, to the boundary where it was last written.
-/
import proofs.«129845_j5488968204990_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Kept

open Cert.KernelIdeal Cert.KernelIdeal.Gen

variable {F : FTy → Type} [FloatOps F]
variable (m : (ℓ : Loc nD τ sig) → Buf (Elt F) ℓ) (ρ : Dev nD → PrngReg)

/-! ## The host stretches -/

/-- The buffers host stretch 0's operations write, in program order. -/
abbrev written0 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27]

theorem written0_sub : (hostOps0 : List (HloOp τ sig (Elt F))).Forall fun op =>
    op.writes ⊆ (written0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Host stretch 0 keeps every buffer it does not write. -/
theorem host0 (c : Dev nD) (b : Ref sig .tc) (hb : b ∉ written0) :
    W1 m ρ c (Proc.devRef .tc b) = W0 m ρ c (Proc.devRef .tc b) :=
  StableHlo.after_of_writes_sub hostOps0 _ written0_sub hb

/-- The buffers host stretch 1's operations write, in program order. -/
abbrev written1 : List (Ref sig .tc) :=
  [main_c_5, main_v29, main_v30, main_c_6, main_v31, main_v32, main_v33, main_v34, main_v35, main_v36, main_v37, main_v38, main_cst_7, main_v39, main_v40, main_v41, main_v42]

theorem written1_sub : (hostOps1 : List (HloOp τ sig (Elt F))).Forall fun op =>
    op.writes ⊆ (written1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Host stretch 1 keeps every buffer it does not write. -/
theorem host1 (c : Dev nD) (b : Ref sig .tc) (hb : b ∉ written1) :
    W3 m ρ c (Proc.devRef .tc b) = W2 m ρ c (Proc.devRef .tc b) :=
  StableHlo.after_of_writes_sub hostOps1 _ written1_sub hb

/-- The buffers host stretch 3's operations write, in program order. -/
abbrev written3 : List (Ref sig .tc) :=
  [main_c_8, main_v45, main_v46, main_c_9, main_v47, main_v48, main_v49, main_v50, main_v51, main_v52, main_v53, main_v54, main_cst_10, main_v55, main_v56, main_v57, main_v58]

theorem written3_sub : (hostOps3 : List (HloOp τ sig (Elt F))).Forall fun op =>
    op.writes ⊆ (written3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Host stretch 3 keeps every buffer it does not write. -/
theorem host3 (c : Dev nD) (b : Ref sig .tc) (hb : b ∉ written3) :
    W6 m ρ c (Proc.devRef .tc b) = W5 m ρ c (Proc.devRef .tc b) :=
  StableHlo.after_of_writes_sub hostOps3 _ written3_sub hb

/-- The buffers host stretch 5's operations write, in program order. -/
abbrev written5 : List (Ref sig .tc) :=
  [main_c_11, main_v61, main_v62, main_c_12, main_v63, main_v64, main_v65, main_v66, main_v67, main_v68, main_v69, main_v70, main_cst_13, main_v71, main_v72, main_v73, main_v74]

theorem written5_sub : (hostOps5 : List (HloOp τ sig (Elt F))).Forall fun op =>
    op.writes ⊆ (written5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Host stretch 5 keeps every buffer it does not write. -/
theorem host5 (c : Dev nD) (b : Ref sig .tc) (hb : b ∉ written5) :
    W9 m ρ c (Proc.devRef .tc b) = W8 m ρ c (Proc.devRef .tc b) :=
  StableHlo.after_of_writes_sub hostOps5 _ written5_sub hb

/-- The buffers host stretch 6's operations write, in program order. -/
abbrev written6 : List (Ref sig .tc) :=
  [main_cst_14, main_v76, main_v77, main_v78, main_cst_15, main_v79, main_cst_16, main_v80, main_v81, main_v82, main_cst_17, main_v83, main_v84, main_v85, main_v86, main_v87, main_v88]

theorem written6_sub : (hostOps6 : List (HloOp τ sig (Elt F))).Forall fun op =>
    op.writes ⊆ (written6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Host stretch 6 keeps every buffer it does not write. -/
theorem host6 (c : Dev nD) (b : Ref sig .tc) (hb : b ∉ written6) :
    W11 m ρ c (Proc.devRef .tc b) = W10 m ρ c (Proc.devRef .tc b) :=
  StableHlo.after_of_writes_sub hostOps6 _ written6_sub hb

/-! ## The regions -/

/-- Region 0 keeps every buffer but its output's array. -/
theorem region0 (c : Dev nD) (b : Ref sig .tc) (hb : b ≠ main_v28) :
    W2 m ρ c (Proc.devRef .tc b) = W1 m ρ c (Proc.devRef .tc b) := by
  by_cases h : ∀ w, Pipeline.arrRef spec0 w ≠ b
  · exact W2_of_ne m ρ c b h
  · obtain ⟨w, rfl⟩ := not_forall_not.mp h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl hb

/-- Region 1 keeps every buffer but its output's array. -/
theorem region1 (c : Dev nD) (b : Ref sig .tc) (hb : b ≠ main_v43) :
    W4 m ρ c (Proc.devRef .tc b) = W3 m ρ c (Proc.devRef .tc b) := by
  by_cases h : ∀ w, Pipeline.arrRef spec1 w ≠ b
  · exact W4_of_ne m ρ c b h
  · obtain ⟨w, rfl⟩ := not_forall_not.mp h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd rfl hb

/-- Region 2 keeps every buffer but its output's array. -/
theorem region2 (c : Dev nD) (b : Ref sig .tc) (hb : b ≠ main_v44) :
    W5 m ρ c (Proc.devRef .tc b) = W4 m ρ c (Proc.devRef .tc b) := by
  by_cases h : ∀ w, Pipeline.arrRef spec2 w ≠ b
  · exact W5_of_ne m ρ c b h
  · obtain ⟨w, rfl⟩ := not_forall_not.mp h
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact absurd rfl hb

/-- Region 3 keeps every buffer but its output's array. -/
theorem region3 (c : Dev nD) (b : Ref sig .tc) (hb : b ≠ main_v59) :
    W7 m ρ c (Proc.devRef .tc b) = W6 m ρ c (Proc.devRef .tc b) := by
  by_cases h : ∀ w, Pipeline.arrRef spec3 w ≠ b
  · exact W7_of_ne m ρ c b h
  · obtain ⟨w, rfl⟩ := not_forall_not.mp h
    match w with
    | ⟨0, _⟩ => exact (W7_arr m ρ c 0).trans (((dat3 (V6 m ρ) c).arrAt_in 0 rfl _).trans (A_eq3 (V6 m ρ) c 0))
    | ⟨1, _⟩ => exact (W7_arr m ρ c 1).trans (((dat3 (V6 m ρ) c).arrAt_in 1 rfl _).trans (A_eq3 (V6 m ρ) c 1))
    | ⟨2, _⟩ => exact (W7_arr m ρ c 2).trans (((dat3 (V6 m ρ) c).arrAt_in 2 rfl _).trans (A_eq3 (V6 m ρ) c 2))
    | ⟨3, _⟩ => exact (W7_arr m ρ c 3).trans (((dat3 (V6 m ρ) c).arrAt_in 3 rfl _).trans (A_eq3 (V6 m ρ) c 3))
    | ⟨4, _⟩ => exact absurd rfl hb

/-- Region 4 keeps every buffer but its output's array. -/
theorem region4 (c : Dev nD) (b : Ref sig .tc) (hb : b ≠ main_v60) :
    W8 m ρ c (Proc.devRef .tc b) = W7 m ρ c (Proc.devRef .tc b) := by
  by_cases h : ∀ w, Pipeline.arrRef spec4 w ≠ b
  · exact W8_of_ne m ρ c b h
  · obtain ⟨w, rfl⟩ := not_forall_not.mp h
    match w with
    | ⟨0, _⟩ => exact (W8_arr m ρ c 0).trans (((dat4 (V7 m ρ) c).arrAt_in 0 rfl _).trans (A_eq4 (V7 m ρ) c 0))
    | ⟨1, _⟩ => exact (W8_arr m ρ c 1).trans (((dat4 (V7 m ρ) c).arrAt_in 1 rfl _).trans (A_eq4 (V7 m ρ) c 1))
    | ⟨2, _⟩ => exact absurd rfl hb

/-- Region 5 keeps every buffer but its output's array. -/
theorem region5 (c : Dev nD) (b : Ref sig .tc) (hb : b ≠ main_v75) :
    W10 m ρ c (Proc.devRef .tc b) = W9 m ρ c (Proc.devRef .tc b) := by
  by_cases h : ∀ w, Pipeline.arrRef spec5 w ≠ b
  · exact W10_of_ne m ρ c b h
  · obtain ⟨w, rfl⟩ := not_forall_not.mp h
    match w with
    | ⟨0, _⟩ => exact (W10_arr m ρ c 0).trans (((dat5 (V9 m ρ) c).arrAt_in 0 rfl _).trans (A_eq5 (V9 m ρ) c 0))
    | ⟨1, _⟩ => exact (W10_arr m ρ c 1).trans (((dat5 (V9 m ρ) c).arrAt_in 1 rfl _).trans (A_eq5 (V9 m ρ) c 1))
    | ⟨2, _⟩ => exact (W10_arr m ρ c 2).trans (((dat5 (V9 m ρ) c).arrAt_in 2 rfl _).trans (A_eq5 (V9 m ρ) c 2))
    | ⟨3, _⟩ => exact (W10_arr m ρ c 3).trans (((dat5 (V9 m ρ) c).arrAt_in 3 rfl _).trans (A_eq5 (V9 m ρ) c 3))
    | ⟨4, _⟩ => exact absurd rfl hb

/-- Region 6 keeps every buffer but its output's array. -/
theorem region6 (c : Dev nD) (b : Ref sig .tc) (hb : b ≠ main_v89) :
    W12 m ρ c (Proc.devRef .tc b) = W11 m ρ c (Proc.devRef .tc b) := by
  by_cases h : ∀ w, Pipeline.arrRef spec6 w ≠ b
  · exact W12_of_ne m ρ c b h
  · obtain ⟨w, rfl⟩ := not_forall_not.mp h
    match w with
    | ⟨0, _⟩ => exact (W12_arr m ρ c 0).trans (((dat6 (V11 m ρ) c).arrAt_in 0 rfl _).trans (A_eq6 (V11 m ρ) c 0))
    | ⟨1, _⟩ => exact (W12_arr m ρ c 1).trans (((dat6 (V11 m ρ) c).arrAt_in 1 rfl _).trans (A_eq6 (V11 m ρ) c 1))
    | ⟨2, _⟩ => exact (W12_arr m ρ c 2).trans (((dat6 (V11 m ρ) c).arrAt_in 2 rfl _).trans (A_eq6 (V11 m ρ) c 2))
    | ⟨3, _⟩ => exact absurd rfl hb

end Cert.KernelIdeal.Kept

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«129845_j5488968204990_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Product0.lean ====
/-
  The first layer's product x @ W1, computed over row tiles, is the host's whole product.

  The region walks twenty tiles of 5000 rows. At a tile it multiplies that tile's rows of the left matrix, narrowed to
  bf16, by the whole right matrix, narrowed to bf16, in the matrix unit started from the zero splat, and writes the
  5000 x 128 block back. On the extended reals narrowing is the identity and the matrix unit's entry is the plain sum
  over the contracted index, so entry (r, q) of the array the region leaves is the sum over k of left[r, k] * right[k, q]:
  the host's whole product, whose entry is the same sum. Each tile is that whole array restricted to its rows, and the
  tiles cover every row.
-/
import proofs.«129845_j5488968204990_1_alg».proof.Proof.Gen.KernelIdeal.Frame
import proofs.«129845_j5488968204990_1_alg».proof.Proof.Gen.ReferenceIdeal
import proofs.«129845_j5488968204990_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Product0

open Cert.KernelIdeal Cert.KernelIdeal.Gen Idealize.ShloMosaic.DotInner

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- The tile's product is rows by columns: one contracted axis of extent 11. -/
theorem plain_tile : Plain dot_S5000x11_S11x128_S5000x128_1_0_0_1_n_n :=
  plain_record dot_S5000x11_S11x128_S5000x128_1_0_0_1_n_n, S5000x11, S11x128

/-- So is the host's whole product. -/
theorem plain_whole : Plain Cert.ReferenceIdeal.dot_S100000x11_S11x128_S100000x128_1_0_0_1_n_n :=
  plain_record Cert.ReferenceIdeal.dot_S100000x11_S11x128_S100000x128_1_0_0_1_n_n, Cert.ReferenceIdeal.S100000x11, Cert.ReferenceIdeal.S11x128

/-- Tile t takes block row t of the left matrix and of the result, and the one block of the right matrix. -/
theorem tile_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at tile t is rows 5000 t … 5000 t + 4999 of the left matrix. -/
theorem left_block (c : Dev nD) (t : Fin cfg0.N) (p : Fin 5000) (k : Fin 11) (r : Fin 100000) (hr : r.val = 5000 * t.val + p.val) :
    (iblk0 V c 0 t : Vec Ideal S5000x11 .f32) (ix2 p k) = (V c main_arg0 : (⟨2, ![100000, 11]⟩ : Shape).Idx → EReal) (ix2 r k) := by
  obtain ⟨e0, e1, -⟩ := tile_indices t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 11 + 1 * k.val = k.val; rw [e1]; omega

/-- The right operand's block at every tile is the whole right matrix. -/
theorem right_block (c : Dev nD) (t : Fin cfg0.N) (k : Fin 11) (q : Fin 128) :
    (iblk0 V c 1 t : Vec Ideal S11x128 .f32) (ix2 k q) = (V c main_arg3 : (⟨2, ![11, 128]⟩ : Shape).Idx → EReal) (ix2 k q) := by
  obtain ⟨-, -, e2, e3, -⟩ := tile_indices t
  unfold iblk0
  rw [View.read_apply]
  show V c main_arg3 _ = V c main_arg3 _
  congr 1
  funext a
  apply Fin.ext
  match a with
  | ⟨0, _⟩ => show win0_1.index t (0 : Fin 2) * 11 + 1 * k.val = k.val; rw [e2]; omega
  | ⟨1, _⟩ => show win0_1.index t (1 : Fin 2) * 128 + 1 * q.val = q.val; rw [e3]; omega

/-- THE WHOLE PRODUCT of the arrays the region finds, on the extended reals. -/
abbrev whole (c : Dev nD) : (⟨2, ![100000, 128]⟩ : Shape).Idx → EReal :=
  Host.dotGeneral (F := Ideal) (φ₁ := .f32) (φ₂ := .f32) Cert.ReferenceIdeal.dot_S100000x11_S11x128_S100000x128_1_0_0_1_n_n none (V c main_arg0) (V c main_arg3)

/-- What tile t computes at (p, q) is the whole product's entry at row 5000 t + p. -/
theorem tile_entry (c : Dev nD) (t : Fin cfg0.N) (j : S5000x128.Idx) :
    k0_pay1 (iblk0 V c 0 t) (iblk0 V c 1 t) j = whole V c (((cfg0.win 2).blk t).view.emb j) := by
  obtain ⟨p, q, rfl⟩ : ∃ (p : Fin 5000) (q : Fin 128), j = ix2 p q := ⟨j 0, j 1, eq_ix2 j⟩
  have ht : t.val < 20 := lt_of_lt_of_eq t.isLt N_0
  have hr : 5000 * t.val + p.val < 100000 := by have := p.isLt; omega
  obtain ⟨-, -, -, -, e4, e5⟩ := tile_indices t
  have he : ((cfg0.win 2).blk t).view.emb (ix2 p q) = (ix2 (⟨5000 * t.val + p.val, hr⟩ : Fin 100000) q : (⟨2, ![100000, 128]⟩ : Shape).Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [he]
  refine Eq.trans ?_ (plain_whole.dotGeneral none (V c main_arg0) (V c main_arg3) ⟨5000 * t.val + p.val, hr⟩ q).symm
  unfold k0_pay1
  refine (plain_tile.matmul_zero none _ _ p q).trans ?_
  refine Finset.sum_congr rfl fun k _ => ?_
  exact congrArg₂ (fun a b : EReal => a * b) (left_block V c t p k ⟨5000 * t.val + p.val, hr⟩ rfl) (right_block V c t k q)

/-- What tile t writes back is block t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zero_offsets]
  simp only [View.ld_unit_zero (S := S5000x11) zero_offsets, View.ld_unit_zero (S := S11x128) zero_offsets]
  funext j
  exact tile_entry V c t j

/-- An index of the result array is in tile t's block iff each coordinate is in the block's range on its axis. -/
theorem mem_block (t : Fin cfg0.N) (i : (⟨2, ![100000, 128]⟩ : Shape).Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row r lies in tile r / 5000: the tiles cover the array. -/
theorem covered (i : (⟨2, ![100000, 128]⟩ : Shape).Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := tile_indices t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 128 ≤ (i 1).val ∧ (i 1).val < win0_2.index t (1 : Fin 2) * 128 + 128; rw [e5]; omega

/-- THE REGION'S RESULT: the array it leaves is the host's whole product of the two arrays it finds. -/
theorem result (c : Dev nD) : (dat0 V c).arrAt 2 cfg0.N = whole V c :=
  (dat0 V c).arrAt_eq_of_cover 2 (whole V c) (fun t _ => flushed_eq V c t) (covered)

end Cert.KernelIdeal.Product0

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«129845_j5488968204990_1_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibGcnCombine.lean ====
/-
  The combine step of a graph-convolution layer, read at an entry, in its two spellings.

  The step adds, to an aggregated message matrix agg, the node's own feature row h scaled by a per-node weight s, and a
  bias row b: entry (r, q) is (agg[r, q] + h[r, q] * s[r]) + b[q]; a rectifier may follow, max(., 0).

  A tile of t rows holds s as a [t, 1] column block and b as a [1, f] row block, casts each block to its own shape (the
  identity) and broadcasts the column across and the row down. The host holds s and b as vectors and places them with
  broadcast_in_dim. Read at an entry both are the same scalar expression; nothing here depends on finiteness, since the
  two sides associate the sums in the same way.
-/
import Idealize.ShloMosaic.PureOps.Ideal.Laws
import Idealize.ShloMosaic.Lib.ValueIdx
import Idealize.ShloMosaic.Lib.Pipeline.Value
import Idealize.ShloMosaic.Lib.ValueLayout
import proofs.«129845_j5488968204990_1_alg».proof.Proof.LibDenseLayer
import proofs.«129845_j5488968204990_1_alg».proof.Proof.LibKeepdimsLayout

noncomputable section

namespace Idealize.ShloMosaic.GcnCombine

open Idealize.ShloMosaic Idealize.ShloMosaic.ValueIdx

variable {n t f : ℕ}

/-- A vector placed as a column and then broadcast across f columns reads, at (r, q), the vector at r. -/
theorem column_apply (v : (⟨1, ![n]⟩ : Shape).Idx → EReal)
    (c1 : (⟨1, ![n]⟩ : Shape).BroadcastsInDim ⟨2, ![n, 1]⟩ ![0])
    (c2 : (⟨2, ![n, 1]⟩ : Shape).BroadcastsInDim ⟨2, ![n, f]⟩ ![0, 1]) (r : Fin n) (q : Fin f) :
    broadcastInDim ⟨2, ![n, f]⟩ ![0, 1] c2 (broadcastInDim ⟨2, ![n, 1]⟩ ![0] c1 v) (ix2 r q) = v (ix1 r) := by
  rw [broadcastInDim_apply ![0, 1] c2 _ (ix2 r q) (ix2 r (0 : Fin 1)) (fun a => by
        match a with
        | ⟨0, _⟩ =>
          show r.val = if n = 1 then 0 else r.val
          split
          · have := r.isLt; omega
          · rfl
        | ⟨1, _⟩ => rfl)]
  exact broadcastInDim_apply ![0] c1 v (ix2 r (0 : Fin 1)) (ix1 r) (fun a => by
        match a with
        | ⟨0, _⟩ =>
          show r.val = if n = 1 then 0 else r.val
          split
          · have := r.isLt; omega
          · rfl)

/-- THE HOST'S SPELLING at (r, q). -/
theorem host_entry (agg h : (⟨2, ![n, f]⟩ : Shape).Idx → EReal) (s : (⟨1, ![n]⟩ : Shape).Idx → EReal) (b : (⟨1, ![f]⟩ : Shape).Idx → EReal)
    (c1 : (⟨1, ![n]⟩ : Shape).BroadcastsInDim ⟨2, ![n, 1]⟩ ![0])
    (c2 : (⟨2, ![n, 1]⟩ : Shape).BroadcastsInDim ⟨2, ![n, f]⟩ ![0, 1])
    (b1 : (⟨1, ![f]⟩ : Shape).BroadcastsInDim ⟨2, ![1, f]⟩ ![1])
    (b2 : (⟨2, ![1, f]⟩ : Shape).BroadcastsInDim ⟨2, ![n, f]⟩ ![0, 1]) (r : Fin n) (q : Fin f) :
    addf (F := Ideal) (φ := .f32)
        (addf (F := Ideal) (φ := .f32) agg
          (mulf (F := Ideal) (φ := .f32) h (broadcastInDim ⟨2, ![n, f]⟩ ![0, 1] c2 (broadcastInDim ⟨2, ![n, 1]⟩ ![0] c1 s))))
        (broadcastInDim ⟨2, ![n, f]⟩ ![0, 1] b2 (broadcastInDim ⟨2, ![1, f]⟩ ![1] b1 b)) (ix2 r q)
      = (agg (ix2 r q) + h (ix2 r q) * s (ix1 r)) + b (ix1 q) := by
  rw [addf_apply, addf_apply, mulf_apply, column_apply, DenseLayer.bias_apply]

/-- The host's rectifier at (r, q): the maximum with the zero splat is the maximum with 0. -/
theorem host_relu_entry (x : (⟨2, ![n, f]⟩ : Shape).Idx → EReal) (z : (⟨0, ![]⟩ : Shape).BroadcastsInDim ⟨2, ![n, f]⟩ ![])
    (r : Fin n) (q : Fin f) :
    maximumf (F := Ideal) (φ := .f32) x (broadcastInDim ⟨2, ![n, f]⟩ ![] z (constant (F := Ideal) ⟨0, ![]⟩ .f32 0x00000000#32)) (ix2 r q)
      = max (x (ix2 r q)) 0 := by
  rw [maximumf_apply, DenseLayer.zero_splat_apply]

/-- THE TILE'S SPELLING at (p, q): the blocks cast to their own shapes, the weight column broadcast across, the bias row
    broadcast down. -/
theorem tile_entry (sc : (⟨2, ![t, 1]⟩ : Shape).Idx → EReal) (br : (⟨2, ![1, f]⟩ : Shape).Idx → EReal)
    (agg h : (⟨2, ![t, f]⟩ : Shape).Idx → EReal)
    (k1 : (⟨2, ![t, 1]⟩ : Shape).ShapeCasts ⟨2, ![t, 1]⟩) (kb : (⟨2, ![t, 1]⟩ : Shape).Broadcasts ⟨2, ![t, f]⟩)
    (k2 : (⟨2, ![1, f]⟩ : Shape).ShapeCasts ⟨2, ![1, f]⟩) (kr : (⟨2, ![1, f]⟩ : Shape).Broadcasts ⟨2, ![t, f]⟩)
    (k3 : (⟨2, ![t, f]⟩ : Shape).ShapeCasts ⟨2, ![t, f]⟩) (p : Fin t) (q : Fin f) :
    addf (F := Ideal) (φ := .f32)
        (addf (F := Ideal) (φ := .f32) (shapeCast ⟨2, ![t, f]⟩ agg k3)
          (mulf (F := Ideal) (φ := .f32) (shapeCast ⟨2, ![t, f]⟩ h k3)
            (broadcastTo ⟨2, ![t, f]⟩ (shapeCast ⟨2, ![t, 1]⟩ (shapeCast ⟨2, ![t, 1]⟩ sc k1) k1) kb)))
        (broadcastTo ⟨2, ![t, f]⟩ (shapeCast ⟨2, ![1, f]⟩ (shapeCast ⟨2, ![1, f]⟩ br k2) k2) kr) (ix2 p q)
      = (agg (ix2 p q) + h (ix2 p q) * sc (ix2 p (0 : Fin 1))) + br (ix2 (0 : Fin 1) q) := by
  simp only [shapeCast_self]
  rw [addf_apply, addf_apply, mulf_apply, Cert.LayoutKeepdims.broadcastTo_a1_ab_apply, broadcastTo_1b_ab_apply]

/-- The tile's rectifier at (p, q): the maximum with the splat of the zero word is the maximum with 0. -/
theorem tile_relu_entry (x : (⟨2, ![t, f]⟩ : Shape).Idx → EReal) (p : Fin t) (q : Fin f) :
    maximumf (F := Ideal) (φ := .f32) x (broadcast ⟨2, ![t, f]⟩ (Scalar.ofBits (F := Ideal) .f32 0x00000000#32)) (ix2 p q)
      = max (x (ix2 p q)) 0 := by
  rw [maximumf_apply, broadcast_apply]
  exact congrArg (max (x (ix2 p q))) Ideal.ofBits_zero_f32

end Idealize.ShloMosaic.GcnCombine

end
-- ==== Proof.Combine1.lean ====
/-
  The first layer's combine step, computed over row tiles, is the host's combine of the whole arrays.

  The region walks twenty tiles of 5000 nodes. At a tile it takes that tile's rows of the aggregated messages and of the
  node features, that tile's entries of the per-node self-loop weight (a column block) and the one bias row, and writes
  (agg + h * weight) + bias, rectified, back as the tile's 5000 x 128 block. Entry (r, q) of the array the region leaves is therefore
  max((agg[r, q] + h[r, q] * s[r]) + b[q], 0), where the weight column is the vector s reshaped and the bias row the vector b
  reshaped: the host's combine of the whole arrays, entry by entry. The two sides group the sums alike, so no law of the
  extended reals beyond reading each operation at an index is used.
-/
import proofs.«129845_j5488968204990_1_alg».proof.Proof.Gen.KernelIdeal.Frame
import proofs.«129845_j5488968204990_1_alg».proof.Proof.LibGcnCombine
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine1

open Cert.KernelIdeal Cert.KernelIdeal.Gen

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- Tile t takes block row t of the messages, the features, the weight column and the result, and the one bias block. -/
theorem tile_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The messages' block at tile t is rows 5000 t … 5000 t + 4999 of the aggregated messages. -/
theorem messages_block (c : Dev nD) (t : Fin cfg1.N) (p : Fin 5000) (q : Fin 128) (r : Fin 100000) (hr : r.val = 5000 * t.val + p.val) :
    (iblk1 V c 0 t : Vec Ideal S5000x128 .f32) (ix2 p q) = (V c main_v41 : (⟨2, ![100000, 128]⟩ : Shape).Idx → EReal) (ix2 r q) := by
  have e : win1_0.index t (0 : Fin 2) = t.val ∧ win1_0.index t (1 : Fin 2) = 0 := by
    have h := tile_indices t; exact ⟨by omega, by omega⟩
  unfold iblk1
  rw [View.read_apply]
  show V c main_v41 _ = V c main_v41 _
  congr 1
  funext a
  apply Fin.ext
  match a with
  | ⟨0, _⟩ => show win1_0.index t (0 : Fin 2) * 5000 + 1 * p.val = r.val; rw [e.1, hr]; omega
  | ⟨1, _⟩ => show win1_0.index t (1 : Fin 2) * 128 + 1 * q.val = q.val; rw [e.2]; omega

/-- The features' block at tile t is the same rows of the node features. -/
theorem features_block (c : Dev nD) (t : Fin cfg1.N) (p : Fin 5000) (q : Fin 128) (r : Fin 100000) (hr : r.val = 5000 * t.val + p.val) :
    (iblk1 V c 1 t : Vec Ideal S5000x128 .f32) (ix2 p q) = (V c main_v28 : (⟨2, ![100000, 128]⟩ : Shape).Idx → EReal) (ix2 r q) := by
  have e : win1_1.index t (0 : Fin 2) = t.val ∧ win1_1.index t (1 : Fin 2) = 0 := by
    have h := tile_indices t; exact ⟨by omega, by omega⟩
  unfold iblk1
  rw [View.read_apply]
  show V c main_v28 _ = V c main_v28 _
  congr 1
  funext a
  apply Fin.ext
  match a with
  | ⟨0, _⟩ => show win1_1.index t (0 : Fin 2) * 5000 + 1 * p.val = r.val; rw [e.1, hr]; omega
  | ⟨1, _⟩ => show win1_1.index t (1 : Fin 2) * 128 + 1 * q.val = q.val; rw [e.2]; omega

/-- The weight block at tile t is the same rows of the weight column. -/
theorem weight_block (c : Dev nD) (t : Fin cfg1.N) (p : Fin 5000)  (r : Fin 100000) (hr : r.val = 5000 * t.val + p.val) :
    (iblk1 V c 2 t : Vec Ideal S5000x1 .f32) (ix2 p (0 : Fin 1)) = (V c main_v27 : (⟨2, ![100000, 1]⟩ : Shape).Idx → EReal) (ix2 r (0 : Fin 1)) := by
  have e : win1_2.index t (0 : Fin 2) = t.val ∧ win1_2.index t (1 : Fin 2) = 0 := by
    have h := tile_indices t; exact ⟨by omega, by omega⟩
  unfold iblk1
  rw [View.read_apply]
  show V c main_v27 _ = V c main_v27 _
  congr 1
  funext a
  apply Fin.ext
  match a with
  | ⟨0, _⟩ => show win1_2.index t (0 : Fin 2) * 5000 + 1 * p.val = r.val; rw [e.1, hr]; omega
  | ⟨1, _⟩ => show win1_2.index t (1 : Fin 2) * 1 + 1 * (0 : Fin 1).val = (0 : Fin 1).val; rw [e.2]; omega

/-- The bias block at every tile is the one bias row. -/
theorem bias_block (c : Dev nD) (t : Fin cfg1.N)  (q : Fin 128)  :
    (iblk1 V c 3 t : Vec Ideal S1x128 .f32) (ix2 (0 : Fin 1) q) = (V c main_v42 : (⟨2, ![1, 128]⟩ : Shape).Idx → EReal) (ix2 (0 : Fin 1) q) := by
  have e : win1_3.index t (0 : Fin 2) = 0 ∧ win1_3.index t (1 : Fin 2) = 0 := by
    have h := tile_indices t; exact ⟨by omega, by omega⟩
  unfold iblk1
  rw [View.read_apply]
  show V c main_v42 _ = V c main_v42 _
  congr 1
  funext a
  apply Fin.ext
  match a with
  | ⟨0, _⟩ => show win1_3.index t (0 : Fin 2) * 1 + 1 * (0 : Fin 1).val = (0 : Fin 1).val; rw [e.1]; rfl
  | ⟨1, _⟩ => show win1_3.index t (1 : Fin 2) * 128 + 1 * q.val = q.val; rw [e.2]; omega

/-- THE HOST'S COMBINE of the arrays the region finds, the weight column and the bias row given as the vectors they are
    reshapes of. -/
abbrev whole (c : Dev nD) (s : (⟨1, ![100000]⟩ : Shape).Idx → EReal) (b : (⟨1, ![128]⟩ : Shape).Idx → EReal)
    (c1 : (⟨1, ![100000]⟩ : Shape).BroadcastsInDim ⟨2, ![100000, 1]⟩ ![0])
    (c2 : (⟨2, ![100000, 1]⟩ : Shape).BroadcastsInDim ⟨2, ![100000, 128]⟩ ![0, 1])
    (b1 : (⟨1, ![128]⟩ : Shape).BroadcastsInDim ⟨2, ![1, 128]⟩ ![1])
    (b2 : (⟨2, ![1, 128]⟩ : Shape).BroadcastsInDim ⟨2, ![100000, 128]⟩ ![0, 1])
    (z : (⟨0, ![]⟩ : Shape).BroadcastsInDim ⟨2, ![100000, 128]⟩ ![]) :
    (⟨2, ![100000, 128]⟩ : Shape).Idx → EReal :=
  maximumf (F := Ideal) (φ := .f32)
    (addf (F := Ideal) (φ := .f32)
      (addf (F := Ideal) (φ := .f32) (V c main_v41)
        (mulf (F := Ideal) (φ := .f32) (V c main_v28) (broadcastInDim ⟨2, ![100000, 128]⟩ ![0, 1] c2 (broadcastInDim ⟨2, ![100000, 1]⟩ ![0] c1 s))))
      (broadcastInDim ⟨2, ![100000, 128]⟩ ![0, 1] b2 (broadcastInDim ⟨2, ![1, 128]⟩ ![1] b1 b)))
    (broadcastInDim ⟨2, ![100000, 128]⟩ ![] z (constant (F := Ideal) ⟨0, ![]⟩ .f32 0x00000000#32))

section
variable (c : Dev nD) (s : (⟨1, ![100000]⟩ : Shape).Idx → EReal) (b : (⟨1, ![128]⟩ : Shape).Idx → EReal)
  (ks : (⟨1, ![100000]⟩ : Shape).ShapeCasts ⟨2, ![100000, 1]⟩) (kb : (⟨1, ![128]⟩ : Shape).ShapeCasts ⟨2, ![1, 128]⟩)
  (hs : (V c main_v27 : (⟨2, ![100000, 1]⟩ : Shape).Idx → EReal) = shapeCast ⟨2, ![100000, 1]⟩ s ks)
  (hb : (V c main_v42 : (⟨2, ![1, 128]⟩ : Shape).Idx → EReal) = shapeCast ⟨2, ![1, 128]⟩ b kb)
  (c1 : (⟨1, ![100000]⟩ : Shape).BroadcastsInDim ⟨2, ![100000, 1]⟩ ![0])
  (c2 : (⟨2, ![100000, 1]⟩ : Shape).BroadcastsInDim ⟨2, ![100000, 128]⟩ ![0, 1])
  (b1 : (⟨1, ![128]⟩ : Shape).BroadcastsInDim ⟨2, ![1, 128]⟩ ![1])
  (b2 : (⟨2, ![1, 128]⟩ : Shape).BroadcastsInDim ⟨2, ![100000, 128]⟩ ![0, 1])
    (z : (⟨0, ![]⟩ : Shape).BroadcastsInDim ⟨2, ![100000, 128]⟩ ![])

include hs hb in
/-- What tile t computes at (p, q) is the host's combine at row 5000 t + p. -/
theorem tile_entry (t : Fin cfg1.N) (j : S5000x128.Idx) :
    k1_pay1 (iblk1 V c 2 t) (iblk1 V c 3 t) (iblk1 V c 0 t) (iblk1 V c 1 t) j
      = whole V c s b c1 c2 b1 b2 z (((cfg1.win 4).blk t).view.emb j) := by
  obtain ⟨p, q, rfl⟩ : ∃ (p : Fin 5000) (q : Fin 128), j = ix2 p q := ⟨j 0, j 1, eq_ix2 j⟩
  have ht : t.val < 20 := lt_of_lt_of_eq t.isLt N_1
  have hr : 5000 * t.val + p.val < 100000 := by have := p.isLt; omega
  have e : win1_4.index t (0 : Fin 2) = t.val ∧ win1_4.index t (1 : Fin 2) = 0 := by
    have h := tile_indices t; exact ⟨by omega, by omega⟩
  have he : ((cfg1.win 4).blk t).view.emb (ix2 p q) = (ix2 (⟨5000 * t.val + p.val, hr⟩ : Fin 100000) q : (⟨2, ![100000, 128]⟩ : Shape).Idx) := by
    funext a
    apply Fin.ext
    match a with
    | ⟨0, _⟩ => show win1_4.index t (0 : Fin 2) * 5000 + 1 * p.val = 5000 * t.val + p.val; rw [e.1]; omega
    | ⟨1, _⟩ => show win1_4.index t (1 : Fin 2) * 128 + 1 * q.val = q.val; rw [e.2]; omega
  rw [he]
  refine Eq.trans ?_ (GcnCombine.host_relu_entry _ z ⟨5000 * t.val + p.val, hr⟩ q).symm
  unfold k1_pay1
  refine (GcnCombine.tile_relu_entry _ p q).trans ?_
  refine congrArg (fun x : EReal => max x 0) ?_
  refine (GcnCombine.tile_entry _ _ _ _ _ _ _ _ _ p q).trans ?_
  refine Eq.trans ?_ (GcnCombine.host_entry (V c main_v41) (V c main_v28) s b c1 c2 b1 b2 ⟨5000 * t.val + p.val, hr⟩ q).symm
  refine congrArg₂ (fun x y : EReal => x + y)
    (congrArg₂ (fun x y : EReal => x + y) (messages_block V c t p q ⟨5000 * t.val + p.val, hr⟩ rfl)
      (congrArg₂ (fun x y : EReal => x * y) (features_block V c t p q ⟨5000 * t.val + p.val, hr⟩ rfl) ?_)) ?_
  · -- the weight column is the vector s reshaped: its entry of row r is s[r]
    exact (weight_block V c t p ⟨5000 * t.val + p.val, hr⟩ rfl).trans
      ((congrFun hs _).trans (Cert.LayoutKeepdims.shapeCast_a_a1_apply s ks ⟨5000 * t.val + p.val, hr⟩ (0 : Fin 1)))
  · -- the bias row is the vector b reshaped: its entry of column q is b[q]
    exact (bias_block V c t q).trans ((congrFun hb _).trans (shapeCast_a_1a_apply b kb (0 : Fin 1) q))

include hs hb in
/-- What tile t writes back is block t of the host's combine. -/
theorem flushed_eq (t : Fin cfg1.N) :
    (dat1 V c).flushed 4 t = ((cfg1.win 4).blk t).view.read (Elt Ideal) (whole V c s b c1 c2 b1 b2 z) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  funext j
  exact tile_entry V c s b ks kb hs hb c1 c2 b1 b2 z t j

end

/-- An index of the result array is in tile t's block iff each coordinate is in the block's range on its axis. -/
theorem mem_block (t : Fin cfg1.N) (i : (⟨2, ![100000, 128]⟩ : Shape).Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row r lies in tile r / 5000: the tiles cover the array. -/
theorem covered (i : (⟨2, ![100000, 128]⟩ : Shape).Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have h := tile_indices t
  have e : win1_4.index t (0 : Fin 2) = (i 0).val / 5000 ∧ win1_4.index t (1 : Fin 2) = 0 :=
    ⟨h.2.2.2.2.2.2.2.2.1, h.2.2.2.2.2.2.2.2.2⟩
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; rw [e.1]; omega
  | ⟨1, _⟩ => show win1_4.index t (1 : Fin 2) * 128 ≤ (i 1).val ∧ (i 1).val < win1_4.index t (1 : Fin 2) * 128 + 128; rw [e.2]; omega

/-- THE REGION'S RESULT: the array it leaves is the host's combine of the arrays it finds, once the weight column and the
    bias row are known to be reshapes of vectors s and b. -/
theorem result (c : Dev nD) (s : (⟨1, ![100000]⟩ : Shape).Idx → EReal) (b : (⟨1, ![128]⟩ : Shape).Idx → EReal)
    (ks : (⟨1, ![100000]⟩ : Shape).ShapeCasts ⟨2, ![100000, 1]⟩) (kb : (⟨1, ![128]⟩ : Shape).ShapeCasts ⟨2, ![1, 128]⟩)
    (hs : (V c main_v27 : (⟨2, ![100000, 1]⟩ : Shape).Idx → EReal) = shapeCast ⟨2, ![100000, 1]⟩ s ks)
    (hb : (V c main_v42 : (⟨2, ![1, 128]⟩ : Shape).Idx → EReal) = shapeCast ⟨2, ![1, 128]⟩ b kb)
    (c1 : (⟨1, ![100000]⟩ : Shape).BroadcastsInDim ⟨2, ![100000, 1]⟩ ![0])
    (c2 : (⟨2, ![100000, 1]⟩ : Shape).BroadcastsInDim ⟨2, ![100000, 128]⟩ ![0, 1])
    (b1 : (⟨1, ![128]⟩ : Shape).BroadcastsInDim ⟨2, ![1, 128]⟩ ![1])
    (b2 : (⟨2, ![1, 128]⟩ : Shape).BroadcastsInDim ⟨2, ![100000, 128]⟩ ![0, 1])
    (z : (⟨0, ![]⟩ : Shape).BroadcastsInDim ⟨2, ![100000, 128]⟩ ![]) :
    (dat1 V c).arrAt 4 cfg1.N = whole V c s b c1 c2 b1 b2 z :=
  (dat1 V c).arrAt_eq_of_cover 4 (whole V c s b c1 c2 b1 b2 z)
    (fun t _ => flushed_eq V c s b ks kb hs hb c1 c2 b1 b2 z t) covered

end Cert.KernelIdeal.Combine1

end
-- ==== Proof.ChainA.lean ====
/-
  The first layer, boundary by boundary.

  Each buffer the later pieces read is named here as a stage of the reference program applied to the launch arguments:
  the two index rows and the edge coefficients after the first host stretch, the product x @ W1 after the first region,
  the aggregated messages after the second stretch, and the rectified combine after the second region. The gathers and
  scatter-adds are the same operations on both sides and are never opened.
-/
import proofs.«129845_j5488968204990_1_alg».proof.Proof.Gen.KernelIdeal.Frame
import proofs.«129845_j5488968204990_1_alg».proof.Proof.Gen.ReferenceIdeal.Read
import proofs.«129845_j5488968204990_1_alg».proof.Proof.Kept
import proofs.«129845_j5488968204990_1_alg».proof.Proof.Product0
import proofs.«129845_j5488968204990_1_alg».proof.Proof.Combine1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

-- the launch contents of the eleven argument arrays on core c
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)

/-! ## After the first host stretch -/

/-- The edges' source row. -/
theorem src_1 : W1 m ρ c (Proc.devRef .tc main_v1) = val_main_v1 (F := Ideal) a1 := by
  dsimp only [W1, hostOps0]; after_results_simp; rfl

/-- The edges' destination row. -/
theorem dst_1 : W1 m ρ c (Proc.devRef .tc main_v3) = val_main_v3 (F := Ideal) a1 := by
  dsimp only [W1, hostOps0]; after_results_simp; rfl

/-- The per-edge coefficient deg[src]^(-1/2) * deg[dst]^(-1/2). -/
theorem coef_1 : W1 m ρ c (Proc.devRef .tc main_v25) = val_main_v25 (F := Ideal) a1 := by
  dsimp only [W1, hostOps0]; after_results_simp; rfl

/-- The self-loop weight 1/deg, reshaped to a column. -/
theorem selfw_1 : W1 m ρ c (Proc.devRef .tc main_v27)
    = shapeCast S100000x1 (val_main_v26 (F := Ideal) a1) shapeCasts_S100000_S100000x1 := by
  dsimp only [W1, hostOps0]; after_results_simp; rfl

theorem arg0_1 : W1 m ρ c (Proc.devRef .tc main_arg0) = a0 := (Kept.host0 m ρ c main_arg0 (by decide)).trans rfl
theorem arg3_1 : W1 m ρ c (Proc.devRef .tc main_arg3) = a3 := (Kept.host0 m ρ c main_arg3 (by decide)).trans rfl

/-! ## After the first region: x @ W1 -/

theorem feat1_2 : W2 m ρ c (Proc.devRef .tc main_v28) = val_main_v27 (F := Ideal) a0 a3 := by
  refine (W2_arr m ρ c 2).trans ((Product0.result (V1 m ρ) c).trans ?_)
  show Host.dotGeneral (F := Ideal) _ none (W1 m ρ c (Proc.devRef .tc main_arg0)) (W1 m ρ c (Proc.devRef .tc main_arg3)) = _
  rw [arg0_1, arg3_1]; rfl

theorem src_2 : W2 m ρ c (Proc.devRef .tc main_v1) = val_main_v1 (F := Ideal) a1 :=
  (Kept.region0 m ρ c main_v1 (by decide)).trans (src_1 m ρ c)
theorem dst_2 : W2 m ρ c (Proc.devRef .tc main_v3) = val_main_v3 (F := Ideal) a1 :=
  (Kept.region0 m ρ c main_v3 (by decide)).trans (dst_1 m ρ c)
theorem coef_2 : W2 m ρ c (Proc.devRef .tc main_v25) = val_main_v25 (F := Ideal) a1 :=
  (Kept.region0 m ρ c main_v25 (by decide)).trans (coef_1 m ρ c)
theorem arg4_2 : W2 m ρ c (Proc.devRef .tc main_arg4) = a4 :=
  (Kept.region0 m ρ c main_arg4 (by decide)).trans ((Kept.host0 m ρ c main_arg4 (by decide)).trans rfl)

/-! ## After the second host stretch: the aggregated messages -/

theorem agg1_3 : W3 m ρ c (Proc.devRef .tc main_v41) = val_main_v40 (F := Ideal) a0 a1 a3 := by
  dsimp only [W3, hostOps1]; after_results_simp
  rw [src_2, dst_2, coef_2, feat1_2]; rfl

theorem bias1_3 : W3 m ρ c (Proc.devRef .tc main_v42) = shapeCast S1x128 a4 shapeCasts_S128_S1x128 := by
  dsimp only [W3, hostOps1]; after_results_simp
  rw [arg4_2]; rfl

theorem feat1_3 : W3 m ρ c (Proc.devRef .tc main_v28) = val_main_v27 (F := Ideal) a0 a3 :=
  (Kept.host1 m ρ c main_v28 (by decide)).trans (feat1_2 m ρ c)
theorem selfw_3 : W3 m ρ c (Proc.devRef .tc main_v27)
    = shapeCast S100000x1 (val_main_v26 (F := Ideal) a1) shapeCasts_S100000_S100000x1 :=
  (Kept.host1 m ρ c main_v27 (by decide)).trans ((Kept.region0 m ρ c main_v27 (by decide)).trans (selfw_1 m ρ c))

/-! ## After the second region: the first layer's rectified output -/

theorem out1_4 : W4 m ρ c (Proc.devRef .tc main_v43) = val_main_v48 (F := Ideal) a0 a1 a3 a4 := by
  refine (W4_arr m ρ c 4).trans ((Combine1.result (V3 m ρ) c (val_main_v26 (F := Ideal) a1) a4
    shapeCasts_S100000_S100000x1 shapeCasts_S128_S1x128 (selfw_3 m ρ c) (bias1_3 m ρ c)
    Cert.ReferenceIdeal.Facts₀.bcast_S100000_S100000x1_0 Cert.ReferenceIdeal.Facts₀.bcast_S100000x1_S100000x128_0_1
    Cert.ReferenceIdeal.Facts₀.bcast_S128_S1x128_1 Cert.ReferenceIdeal.Facts₀.bcast_S1x128_S100000x128_0_1
    Cert.ReferenceIdeal.Facts₀.bcast_S_S100000x128).trans ?_)
  unfold Combine1.whole
  show maximumf (F := Ideal) (φ := .f32) (addf (F := Ideal) (φ := .f32) (addf (F := Ideal) (φ := .f32) (W3 m ρ c (Proc.devRef .tc main_v41))
    (mulf (F := Ideal) (φ := .f32) (W3 m ρ c (Proc.devRef .tc main_v28)) _)) _) _ = _
  rw [agg1_3, feat1_3]; rfl

end Cert.KernelIdeal.Chain

end
-- ==== Proof.Product2.lean ====
/-
  The second layer's product h1 @ W2, computed over row tiles, is the host's whole product.

  The region walks twenty tiles of 5000 rows. At a tile it multiplies that tile's rows of the left matrix, narrowed to
  bf16, by the whole right matrix, narrowed to bf16, in the matrix unit started from the zero splat, and writes the
  5000 x 128 block back. On the extended reals narrowing is the identity and the matrix unit's entry is the plain sum
  over the contracted index, so entry (r, q) of the array the region leaves is the sum over k of left[r, k] * right[k, q]:
  the host's whole product, whose entry is the same sum. Each tile is that whole array restricted to its rows, and the
  tiles cover every row.
-/
import proofs.«129845_j5488968204990_1_alg».proof.Proof.Gen.KernelIdeal.Frame
import proofs.«129845_j5488968204990_1_alg».proof.Proof.Gen.ReferenceIdeal
import proofs.«129845_j5488968204990_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Product2

open Cert.KernelIdeal Cert.KernelIdeal.Gen Idealize.ShloMosaic.DotInner

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- The tile's product is rows by columns: one contracted axis of extent 128. -/
theorem plain_tile : Plain dot_S5000x128_S128x128_S5000x128_1_0_0_1_n_n :=
  plain_record dot_S5000x128_S128x128_S5000x128_1_0_0_1_n_n, S5000x128, S128x128

/-- So is the host's whole product. -/
theorem plain_whole : Plain Cert.ReferenceIdeal.dot_S100000x128_S128x128_S100000x128_1_0_0_1_n_n :=
  plain_record Cert.ReferenceIdeal.dot_S100000x128_S128x128_S100000x128_1_0_0_1_n_n, Cert.ReferenceIdeal.S100000x128, Cert.ReferenceIdeal.S128x128

/-- Tile t takes block row t of the left matrix and of the result, and the one block of the right matrix. -/
theorem tile_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at tile t is rows 5000 t … 5000 t + 4999 of the left matrix. -/
theorem left_block (c : Dev nD) (t : Fin cfg2.N) (p : Fin 5000) (k : Fin 128) (r : Fin 100000) (hr : r.val = 5000 * t.val + p.val) :
    (iblk2 V c 0 t : Vec Ideal S5000x128 .f32) (ix2 p k) = (V c main_v43 : (⟨2, ![100000, 128]⟩ : Shape).Idx → EReal) (ix2 r k) := by
  obtain ⟨e0, e1, -⟩ := tile_indices t
  unfold iblk2
  rw [View.read_apply]
  show V c main_v43 _ = V c main_v43 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The right operand's block at every tile is the whole right matrix. -/
theorem right_block (c : Dev nD) (t : Fin cfg2.N) (k : Fin 128) (q : Fin 128) :
    (iblk2 V c 1 t : Vec Ideal S128x128 .f32) (ix2 k q) = (V c main_arg5 : (⟨2, ![128, 128]⟩ : Shape).Idx → EReal) (ix2 k q) := by
  obtain ⟨-, -, e2, e3, -⟩ := tile_indices t
  unfold iblk2
  rw [View.read_apply]
  show V c main_arg5 _ = V c main_arg5 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- THE WHOLE PRODUCT of the arrays the region finds, on the extended reals. -/
abbrev whole (c : Dev nD) : (⟨2, ![100000, 128]⟩ : Shape).Idx → EReal :=
  Host.dotGeneral (F := Ideal) (φ₁ := .f32) (φ₂ := .f32) Cert.ReferenceIdeal.dot_S100000x128_S128x128_S100000x128_1_0_0_1_n_n none (V c main_v43) (V c main_arg5)

/-- What tile t computes at (p, q) is the whole product's entry at row 5000 t + p. -/
theorem tile_entry (c : Dev nD) (t : Fin cfg2.N) (j : S5000x128.Idx) :
    k2_pay1 (iblk2 V c 0 t) (iblk2 V c 1 t) j = whole V c (((cfg2.win 2).blk t).view.emb j) := by
  obtain ⟨p, q, rfl⟩ : ∃ (p : Fin 5000) (q : Fin 128), j = ix2 p q := ⟨j 0, j 1, eq_ix2 j⟩
  have ht : t.val < 20 := lt_of_lt_of_eq t.isLt N_2
  have hr : 5000 * t.val + p.val < 100000 := by have := p.isLt; omega
  obtain ⟨-, -, -, -, e4, e5⟩ := tile_indices t
  have he : ((cfg2.win 2).blk t).view.emb (ix2 p q) = (ix2 (⟨5000 * t.val + p.val, hr⟩ : Fin 100000) q : (⟨2, ![100000, 128]⟩ : Shape).Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 128 + 1 * q.val = q.val; rw [e5]; omega
  rw [he]
  refine Eq.trans ?_ (plain_whole.dotGeneral none (V c main_v43) (V c main_arg5) ⟨5000 * t.val + p.val, hr⟩ q).symm
  unfold k2_pay1
  refine (plain_tile.matmul_zero none _ _ p q).trans ?_
  refine Finset.sum_congr rfl fun k _ => ?_
  -- the body casts the left block to its own shape first: the identity
  refine congrArg₂ (fun a b : EReal => a * b) ?_ (right_block V c t k q)
  exact (congrFun (shapeCast_self (iblk2 V c 0 t : Vec Ideal S5000x128 .f32) shapeCasts_S5000x128_S5000x128) (ix2 p k)).trans
    (left_block V c t p k ⟨5000 * t.val + p.val, hr⟩ rfl)

/-- What tile t writes back is block t of the whole product. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  funext j
  exact tile_entry V c t j

/-- An index of the result array is in tile t's block iff each coordinate is in the block's range on its axis. -/
theorem mem_block (t : Fin cfg2.N) (i : (⟨2, ![100000, 128]⟩ : Shape).Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row r lies in tile r / 5000: the tiles cover the array. -/
theorem covered (i : (⟨2, ![100000, 128]⟩ : Shape).Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e4, e5⟩ := tile_indices t
  have e4' : win2_2.index t (0 : Fin 2) = (i 0).val / 5000 := e4
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; rw [e4']; omega
  | ⟨1, _⟩ => show win2_2.index t (1 : Fin 2) * 128 ≤ (i 1).val ∧ (i 1).val < win2_2.index t (1 : Fin 2) * 128 + 128; rw [e5]; omega

/-- THE REGION'S RESULT: the array it leaves is the host's whole product of the two arrays it finds. -/
theorem result (c : Dev nD) : (dat2 V c).arrAt 2 cfg2.N = whole V c :=
  (dat2 V c).arrAt_eq_of_cover 2 (whole V c) (fun t _ => flushed_eq V c t) (covered)

end Cert.KernelIdeal.Product2

end
-- ==== Proof.Combine3.lean ====
/-
  The second layer's combine step, computed over row tiles, is the host's combine of the whole arrays.

  The region walks twenty tiles of 5000 nodes. At a tile it takes that tile's rows of the aggregated messages and of the
  node features, that tile's entries of the per-node self-loop weight (a column block) and the one bias row, and writes
  (agg + h * weight) + bias, rectified, back as the tile's 5000 x 128 block. Entry (r, q) of the array the region leaves is therefore
  max((agg[r, q] + h[r, q] * s[r]) + b[q], 0), where the weight column is the vector s reshaped and the bias row the vector b
  reshaped: the host's combine of the whole arrays, entry by entry. The two sides group the sums alike, so no law of the
  extended reals beyond reading each operation at an index is used.
-/
import proofs.«129845_j5488968204990_1_alg».proof.Proof.Gen.KernelIdeal.Frame
import proofs.«129845_j5488968204990_1_alg».proof.Proof.LibGcnCombine
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine3

open Cert.KernelIdeal Cert.KernelIdeal.Gen

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- Tile t takes block row t of the messages, the features, the weight column and the result, and the one bias block. -/
theorem tile_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The messages' block at tile t is rows 5000 t … 5000 t + 4999 of the aggregated messages. -/
theorem messages_block (c : Dev nD) (t : Fin cfg3.N) (p : Fin 5000) (q : Fin 128) (r : Fin 100000) (hr : r.val = 5000 * t.val + p.val) :
    (iblk3 V c 0 t : Vec Ideal S5000x128 .f32) (ix2 p q) = (V c main_v57 : (⟨2, ![100000, 128]⟩ : Shape).Idx → EReal) (ix2 r q) := by
  have e : win3_0.index t (0 : Fin 2) = t.val ∧ win3_0.index t (1 : Fin 2) = 0 := by
    have h := tile_indices t; exact ⟨by omega, by omega⟩
  unfold iblk3
  rw [View.read_apply]
  show V c main_v57 _ = V c main_v57 _
  congr 1
  funext a
  apply Fin.ext
  match a with
  | ⟨0, _⟩ => show win3_0.index t (0 : Fin 2) * 5000 + 1 * p.val = r.val; rw [e.1, hr]; omega
  | ⟨1, _⟩ => show win3_0.index t (1 : Fin 2) * 128 + 1 * q.val = q.val; rw [e.2]; omega

/-- The features' block at tile t is the same rows of the node features. -/
theorem features_block (c : Dev nD) (t : Fin cfg3.N) (p : Fin 5000) (q : Fin 128) (r : Fin 100000) (hr : r.val = 5000 * t.val + p.val) :
    (iblk3 V c 1 t : Vec Ideal S5000x128 .f32) (ix2 p q) = (V c main_v44 : (⟨2, ![100000, 128]⟩ : Shape).Idx → EReal) (ix2 r q) := by
  have e : win3_1.index t (0 : Fin 2) = t.val ∧ win3_1.index t (1 : Fin 2) = 0 := by
    have h := tile_indices t; exact ⟨by omega, by omega⟩
  unfold iblk3
  rw [View.read_apply]
  show V c main_v44 _ = V c main_v44 _
  congr 1
  funext a
  apply Fin.ext
  match a with
  | ⟨0, _⟩ => show win3_1.index t (0 : Fin 2) * 5000 + 1 * p.val = r.val; rw [e.1, hr]; omega
  | ⟨1, _⟩ => show win3_1.index t (1 : Fin 2) * 128 + 1 * q.val = q.val; rw [e.2]; omega

/-- The weight block at tile t is the same rows of the weight column. -/
theorem weight_block (c : Dev nD) (t : Fin cfg3.N) (p : Fin 5000)  (r : Fin 100000) (hr : r.val = 5000 * t.val + p.val) :
    (iblk3 V c 2 t : Vec Ideal S5000x1 .f32) (ix2 p (0 : Fin 1)) = (V c main_v27 : (⟨2, ![100000, 1]⟩ : Shape).Idx → EReal) (ix2 r (0 : Fin 1)) := by
  have e : win3_2.index t (0 : Fin 2) = t.val ∧ win3_2.index t (1 : Fin 2) = 0 := by
    have h := tile_indices t; exact ⟨by omega, by omega⟩
  unfold iblk3
  rw [View.read_apply]
  show V c main_v27 _ = V c main_v27 _
  congr 1
  funext a
  apply Fin.ext
  match a with
  | ⟨0, _⟩ => show win3_2.index t (0 : Fin 2) * 5000 + 1 * p.val = r.val; rw [e.1, hr]; omega
  | ⟨1, _⟩ => show win3_2.index t (1 : Fin 2) * 1 + 1 * (0 : Fin 1).val = (0 : Fin 1).val; rw [e.2]; omega

/-- The bias block at every tile is the one bias row. -/
theorem bias_block (c : Dev nD) (t : Fin cfg3.N)  (q : Fin 128)  :
    (iblk3 V c 3 t : Vec Ideal S1x128 .f32) (ix2 (0 : Fin 1) q) = (V c main_v58 : (⟨2, ![1, 128]⟩ : Shape).Idx → EReal) (ix2 (0 : Fin 1) q) := by
  have e : win3_3.index t (0 : Fin 2) = 0 ∧ win3_3.index t (1 : Fin 2) = 0 := by
    have h := tile_indices t; exact ⟨by omega, by omega⟩
  unfold iblk3
  rw [View.read_apply]
  show V c main_v58 _ = V c main_v58 _
  congr 1
  funext a
  apply Fin.ext
  match a with
  | ⟨0, _⟩ => show win3_3.index t (0 : Fin 2) * 1 + 1 * (0 : Fin 1).val = (0 : Fin 1).val; rw [e.1]; rfl
  | ⟨1, _⟩ => show win3_3.index t (1 : Fin 2) * 128 + 1 * q.val = q.val; rw [e.2]; omega

/-- THE HOST'S COMBINE of the arrays the region finds, the weight column and the bias row given as the vectors they are
    reshapes of. -/
abbrev whole (c : Dev nD) (s : (⟨1, ![100000]⟩ : Shape).Idx → EReal) (b : (⟨1, ![128]⟩ : Shape).Idx → EReal)
    (c1 : (⟨1, ![100000]⟩ : Shape).BroadcastsInDim ⟨2, ![100000, 1]⟩ ![0])
    (c2 : (⟨2, ![100000, 1]⟩ : Shape).BroadcastsInDim ⟨2, ![100000, 128]⟩ ![0, 1])
    (b1 : (⟨1, ![128]⟩ : Shape).BroadcastsInDim ⟨2, ![1, 128]⟩ ![1])
    (b2 : (⟨2, ![1, 128]⟩ : Shape).BroadcastsInDim ⟨2, ![100000, 128]⟩ ![0, 1])
    (z : (⟨0, ![]⟩ : Shape).BroadcastsInDim ⟨2, ![100000, 128]⟩ ![]) :
    (⟨2, ![100000, 128]⟩ : Shape).Idx → EReal :=
  maximumf (F := Ideal) (φ := .f32)
    (addf (F := Ideal) (φ := .f32)
      (addf (F := Ideal) (φ := .f32) (V c main_v57)
        (mulf (F := Ideal) (φ := .f32) (V c main_v44) (broadcastInDim ⟨2, ![100000, 128]⟩ ![0, 1] c2 (broadcastInDim ⟨2, ![100000, 1]⟩ ![0] c1 s))))
      (broadcastInDim ⟨2, ![100000, 128]⟩ ![0, 1] b2 (broadcastInDim ⟨2, ![1, 128]⟩ ![1] b1 b)))
    (broadcastInDim ⟨2, ![100000, 128]⟩ ![] z (constant (F := Ideal) ⟨0, ![]⟩ .f32 0x00000000#32))

section
variable (c : Dev nD) (s : (⟨1, ![100000]⟩ : Shape).Idx → EReal) (b : (⟨1, ![128]⟩ : Shape).Idx → EReal)
  (ks : (⟨1, ![100000]⟩ : Shape).ShapeCasts ⟨2, ![100000, 1]⟩) (kb : (⟨1, ![128]⟩ : Shape).ShapeCasts ⟨2, ![1, 128]⟩)
  (hs : (V c main_v27 : (⟨2, ![100000, 1]⟩ : Shape).Idx → EReal) = shapeCast ⟨2, ![100000, 1]⟩ s ks)
  (hb : (V c main_v58 : (⟨2, ![1, 128]⟩ : Shape).Idx → EReal) = shapeCast ⟨2, ![1, 128]⟩ b kb)
  (c1 : (⟨1, ![100000]⟩ : Shape).BroadcastsInDim ⟨2, ![100000, 1]⟩ ![0])
  (c2 : (⟨2, ![100000, 1]⟩ : Shape).BroadcastsInDim ⟨2, ![100000, 128]⟩ ![0, 1])
  (b1 : (⟨1, ![128]⟩ : Shape).BroadcastsInDim ⟨2, ![1, 128]⟩ ![1])
  (b2 : (⟨2, ![1, 128]⟩ : Shape).BroadcastsInDim ⟨2, ![100000, 128]⟩ ![0, 1])
    (z : (⟨0, ![]⟩ : Shape).BroadcastsInDim ⟨2, ![100000, 128]⟩ ![])

include hs hb in
/-- What tile t computes at (p, q) is the host's combine at row 5000 t + p. -/
theorem tile_entry (t : Fin cfg3.N) (j : S5000x128.Idx) :
    k3_pay1 (iblk3 V c 2 t) (iblk3 V c 3 t) (iblk3 V c 0 t) (iblk3 V c 1 t) j
      = whole V c s b c1 c2 b1 b2 z (((cfg3.win 4).blk t).view.emb j) := by
  obtain ⟨p, q, rfl⟩ : ∃ (p : Fin 5000) (q : Fin 128), j = ix2 p q := ⟨j 0, j 1, eq_ix2 j⟩
  have ht : t.val < 20 := lt_of_lt_of_eq t.isLt N_3
  have hr : 5000 * t.val + p.val < 100000 := by have := p.isLt; omega
  have e : win3_4.index t (0 : Fin 2) = t.val ∧ win3_4.index t (1 : Fin 2) = 0 := by
    have h := tile_indices t; exact ⟨by omega, by omega⟩
  have he : ((cfg3.win 4).blk t).view.emb (ix2 p q) = (ix2 (⟨5000 * t.val + p.val, hr⟩ : Fin 100000) q : (⟨2, ![100000, 128]⟩ : Shape).Idx) := by
    funext a
    apply Fin.ext
    match a with
    | ⟨0, _⟩ => show win3_4.index t (0 : Fin 2) * 5000 + 1 * p.val = 5000 * t.val + p.val; rw [e.1]; omega
    | ⟨1, _⟩ => show win3_4.index t (1 : Fin 2) * 128 + 1 * q.val = q.val; rw [e.2]; omega
  rw [he]
  refine Eq.trans ?_ (GcnCombine.host_relu_entry _ z ⟨5000 * t.val + p.val, hr⟩ q).symm
  unfold k3_pay1
  refine (GcnCombine.tile_relu_entry _ p q).trans ?_
  refine congrArg (fun x : EReal => max x 0) ?_
  refine (GcnCombine.tile_entry _ _ _ _ _ _ _ _ _ p q).trans ?_
  refine Eq.trans ?_ (GcnCombine.host_entry (V c main_v57) (V c main_v44) s b c1 c2 b1 b2 ⟨5000 * t.val + p.val, hr⟩ q).symm
  refine congrArg₂ (fun x y : EReal => x + y)
    (congrArg₂ (fun x y : EReal => x + y) (messages_block V c t p q ⟨5000 * t.val + p.val, hr⟩ rfl)
      (congrArg₂ (fun x y : EReal => x * y) (features_block V c t p q ⟨5000 * t.val + p.val, hr⟩ rfl) ?_)) ?_
  · -- the weight column is the vector s reshaped: its entry of row r is s[r]
    exact (weight_block V c t p ⟨5000 * t.val + p.val, hr⟩ rfl).trans
      ((congrFun hs _).trans (Cert.LayoutKeepdims.shapeCast_a_a1_apply s ks ⟨5000 * t.val + p.val, hr⟩ (0 : Fin 1)))
  · -- the bias row is the vector b reshaped: its entry of column q is b[q]
    exact (bias_block V c t q).trans ((congrFun hb _).trans (shapeCast_a_1a_apply b kb (0 : Fin 1) q))

include hs hb in
/-- What tile t writes back is block t of the host's combine. -/
theorem flushed_eq (t : Fin cfg3.N) :
    (dat3 V c).flushed 4 t = ((cfg3.win 4).blk t).view.read (Elt Ideal) (whole V c s b c1 c2 b1 b2 z) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  funext j
  exact tile_entry V c s b ks kb hs hb c1 c2 b1 b2 z t j

end

/-- An index of the result array is in tile t's block iff each coordinate is in the block's range on its axis. -/
theorem mem_block (t : Fin cfg3.N) (i : (⟨2, ![100000, 128]⟩ : Shape).Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Row r lies in tile r / 5000: the tiles cover the array. -/
theorem covered (i : (⟨2, ![100000, 128]⟩ : Shape).Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have h := tile_indices t
  have e : win3_4.index t (0 : Fin 2) = (i 0).val / 5000 ∧ win3_4.index t (1 : Fin 2) = 0 :=
    ⟨h.2.2.2.2.2.2.2.2.1, h.2.2.2.2.2.2.2.2.2⟩
  refine ⟨t, flush3_4 t, ?_⟩
  rw [mem_block]
  intro a
  match a with
  | ⟨0, _⟩ => show win3_4.index t (0 : Fin 2) * 5000 ≤ (i 0).val ∧ (i 0).val < win3_4.index t (0 : Fin 2) * 5000 + 5000; rw [e.1]; omega
  | ⟨1, _⟩ => show win3_4.index t (1 : Fin 2) * 128 ≤ (i 1).val ∧ (i 1).val < win3_4.index t (1 : Fin 2) * 128 + 128; rw [e.2]; omega

/-- THE REGION'S RESULT: the array it leaves is the host's combine of the arrays it finds, once the weight column and the
    bias row are known to be reshapes of vectors s and b. -/
theorem result (c : Dev nD) (s : (⟨1, ![100000]⟩ : Shape).Idx → EReal) (b : (⟨1, ![128]⟩ : Shape).Idx → EReal)
    (ks : (⟨1, ![100000]⟩ : Shape).ShapeCasts ⟨2, ![100000, 1]⟩) (kb : (⟨1, ![128]⟩ : Shape).ShapeCasts ⟨2, ![1, 128]⟩)
    (hs : (V c main_v27 : (⟨2, ![100000, 1]⟩ : Shape).Idx → EReal) = shapeCast ⟨2, ![100000, 1]⟩ s ks)
    (hb : (V c main_v58 : (⟨2, ![1, 128]⟩ : Shape).Idx → EReal) = shapeCast ⟨2, ![1, 128]⟩ b kb)
    (c1 : (⟨1, ![100000]⟩ : Shape).BroadcastsInDim ⟨2, ![100000, 1]⟩ ![0])
    (c2 : (⟨2, ![100000, 1]⟩ : Shape).BroadcastsInDim ⟨2, ![100000, 128]⟩ ![0, 1])
    (b1 : (⟨1, ![128]⟩ : Shape).BroadcastsInDim ⟨2, ![1, 128]⟩ ![1])
    (b2 : (⟨2, ![1, 128]⟩ : Shape).BroadcastsInDim ⟨2, ![100000, 128]⟩ ![0, 1])
    (z : (⟨0, ![]⟩ : Shape).BroadcastsInDim ⟨2, ![100000, 128]⟩ ![]) :
    (dat3 V c).arrAt 4 cfg3.N = whole V c s b c1 c2 b1 b2 z :=
  (dat3 V c).arrAt_eq_of_cover 4 (whole V c s b c1 c2 b1 b2 z)
    (fun t _ => flushed_eq V c s b ks kb hs hb c1 c2 b1 b2 z t) covered

end Cert.KernelIdeal.Combine3

end
-- ==== Proof.ChainB.lean ====
/-
  The second layer, boundary by boundary: the product h1 @ W2 after the third region, the aggregated messages after the
  third host stretch, the rectified combine after the fourth region — each a stage of the reference program applied to
  the launch arguments.
-/
import proofs.«129845_j5488968204990_1_alg».proof.Proof.ChainA
import proofs.«129845_j5488968204990_1_alg».proof.Proof.Product2
import proofs.«129845_j5488968204990_1_alg».proof.Proof.Combine3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

-- the launch contents of the eleven argument arrays on core c
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)

/-! ## After the third region: h1 @ W2 -/

theorem arg5_4 : W4 m ρ c (Proc.devRef .tc main_arg5) = a5 :=
  (Kept.region1 m ρ c main_arg5 (by decide)).trans ((Kept.host1 m ρ c main_arg5 (by decide)).trans ((Kept.region0 m ρ c main_arg5 (by decide)).trans ((Kept.host0 m ρ c main_arg5 (by decide)).trans (rfl))))

theorem feat2_5 : W5 m ρ c (Proc.devRef .tc main_v44) = val_main_v49 (F := Ideal) a0 a1 a3 a4 a5 := by
  refine (W5_arr m ρ c 2).trans ((Product2.result (V4 m ρ) c).trans ?_)
  show Host.dotGeneral (F := Ideal) _ none (W4 m ρ c (Proc.devRef .tc main_v43)) (W4 m ρ c (Proc.devRef .tc main_arg5)) = _
  rw [out1_4, arg5_4]; rfl

theorem src_5 : W5 m ρ c (Proc.devRef .tc main_v1) = val_main_v1 (F := Ideal) a1 :=
  (Kept.region2 m ρ c main_v1 (by decide)).trans ((Kept.region1 m ρ c main_v1 (by decide)).trans ((Kept.host1 m ρ c main_v1 (by decide)).trans (src_2 m ρ c)))
theorem dst_5 : W5 m ρ c (Proc.devRef .tc main_v3) = val_main_v3 (F := Ideal) a1 :=
  (Kept.region2 m ρ c main_v3 (by decide)).trans ((Kept.region1 m ρ c main_v3 (by decide)).trans ((Kept.host1 m ρ c main_v3 (by decide)).trans (dst_2 m ρ c)))
theorem coef_5 : W5 m ρ c (Proc.devRef .tc main_v25) = val_main_v25 (F := Ideal) a1 :=
  (Kept.region2 m ρ c main_v25 (by decide)).trans ((Kept.region1 m ρ c main_v25 (by decide)).trans ((Kept.host1 m ρ c main_v25 (by decide)).trans (coef_2 m ρ c)))
theorem arg6_5 : W5 m ρ c (Proc.devRef .tc main_arg6) = a6 :=
  (Kept.region2 m ρ c main_arg6 (by decide)).trans ((Kept.region1 m ρ c main_arg6 (by decide)).trans ((Kept.host1 m ρ c main_arg6 (by decide)).trans ((Kept.region0 m ρ c main_arg6 (by decide)).trans ((Kept.host0 m ρ c main_arg6 (by decide)).trans (rfl)))))

/-! ## After the third host stretch: the aggregated messages -/

theorem agg2_6 : W6 m ρ c (Proc.devRef .tc main_v57) = val_main_v62 (F := Ideal) a0 a1 a3 a4 a5 := by
  dsimp only [W6, hostOps3]; after_results_simp
  rw [src_5, dst_5, coef_5, feat2_5]; rfl

theorem bias2_6 : W6 m ρ c (Proc.devRef .tc main_v58) = shapeCast S1x128 a6 shapeCasts_S128_S1x128 := by
  dsimp only [W6, hostOps3]; after_results_simp
  rw [arg6_5]; rfl

theorem feat2_6 : W6 m ρ c (Proc.devRef .tc main_v44) = val_main_v49 (F := Ideal) a0 a1 a3 a4 a5 :=
  (Kept.host3 m ρ c main_v44 (by decide)).trans (feat2_5 m ρ c)
theorem selfw_6 : W6 m ρ c (Proc.devRef .tc main_v27) = shapeCast S100000x1 (val_main_v26 (F := Ideal) a1) shapeCasts_S100000_S100000x1 :=
  (Kept.host3 m ρ c main_v27 (by decide)).trans ((Kept.region2 m ρ c main_v27 (by decide)).trans ((Kept.region1 m ρ c main_v27 (by decide)).trans (selfw_3 m ρ c)))

/-! ## After the fourth region: the second layer's rectified output -/

theorem out2_7 : W7 m ρ c (Proc.devRef .tc main_v59) = val_main_v70 (F := Ideal) a0 a1 a3 a4 a5 a6 := by
  refine (W7_arr m ρ c 4).trans ((Combine3.result (V6 m ρ) c (val_main_v26 (F := Ideal) a1) a6
    shapeCasts_S100000_S100000x1 shapeCasts_S128_S1x128 (selfw_6 m ρ c) (bias2_6 m ρ c)
    Cert.ReferenceIdeal.Facts₀.bcast_S100000_S100000x1_0 Cert.ReferenceIdeal.Facts₀.bcast_S100000x1_S100000x128_0_1
    Cert.ReferenceIdeal.Facts₀.bcast_S128_S1x128_1 Cert.ReferenceIdeal.Facts₀.bcast_S1x128_S100000x128_0_1
    Cert.ReferenceIdeal.Facts₀.bcast_S_S100000x128).trans ?_)
  unfold Combine3.whole
  show maximumf (F := Ideal) (φ := .f32) (addf (F := Ideal) (φ := .f32) (addf (F := Ideal) (φ := .f32) (W6 m ρ c (Proc.devRef .tc main_v57))
    (mulf (F := Ideal) (φ := .f32) (W6 m ρ c (Proc.devRef .tc main_v44)) _)) _) _ = _
  rw [agg2_6, feat2_6]; rfl

end Cert.KernelIdeal.Chain

end
-- ==== Proof.Product4.lean ====
/-
  The third layer's product h2 @ W3, computed over row tiles, is the host's whole product.

  The region walks twenty tiles of 5000 rows. At a tile it multiplies that tile's rows of the left matrix, narrowed to
  bf16, by the whole right matrix, narrowed to bf16, in the matrix unit started from the zero splat, and writes the
  5000 x 128 block back. On the extended reals narrowing is the identity and the matrix unit's entry is the plain sum
  over the contracted index, so entry (r, q) of the array the region leaves is the sum over k of left[r, k] * right[k, q]:
  the host's whole product, whose entry is the same sum. Each tile is that whole array restricted to its rows, and the
  tiles cover every row.
-/
import proofs.«129845_j5488968204990_1_alg».proof.Proof.Gen.KernelIdeal.Frame
import proofs.«129845_j5488968204990_1_alg».proof.Proof.Gen.ReferenceIdeal
import proofs.«129845_j5488968204990_1_alg».proof.Proof.LibDotInnerHost
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Product4

open Cert.KernelIdeal Cert.KernelIdeal.Gen Idealize.ShloMosaic.DotInner

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- The tile's product is rows by columns: one contracted axis of extent 128. -/
theorem plain_tile : Plain dot_S5000x128_S128x128_S5000x128_1_0_0_1_n_n :=
  plain_record dot_S5000x128_S128x128_S5000x128_1_0_0_1_n_n, S5000x128, S128x128

/-- So is the host's whole product. -/
theorem plain_whole : Plain Cert.ReferenceIdeal.dot_S100000x128_S128x128_S100000x128_1_0_0_1_n_n :=
  plain_record Cert.ReferenceIdeal.dot_S100000x128_S128x128_S100000x128_1_0_0_1_n_n, Cert.ReferenceIdeal.S100000x128, Cert.ReferenceIdeal.S128x128

/-- Tile t takes block row t of the left matrix and of the result, and the one block of the right matrix. -/
theorem tile_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at tile t is rows 5000 t … 5000 t + 4999 of the left matrix. -/
theorem left_block (c : Dev nD) (t : Fin cfg4.N) (p : Fin 5000) (k : Fin 128) (r : Fin 100000) (hr : r.val = 5000 * t.val + p.val) :
    (iblk4 V c 0 t : Vec Ideal S5000x128 .f32) (ix2 p k) = (V c main_v59 : (⟨2, ![100000, 128]⟩ : Shape).Idx → EReal) (ix2 r k) := by
  obtain ⟨e0, e1, -⟩ := tile_indices t
  unfold iblk4
  rw [View.read_apply]
  show V c main_v59 _ = V c main_v59 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The right operand's block at every tile is the whole right matrix. -/
theorem right_block (c : Dev nD) (t : Fin cfg4.N) (k : Fin 128) (q : Fin 128) :
    (iblk4 V c 1 t : Vec Ideal S128x128 .f32) (ix2 k q) = (V c main_arg7 : (⟨2, ![128, 128]⟩ : Shape).Idx → EReal) (ix2 k q) := by
  obtain ⟨-, -, e2, e3, -⟩ := tile_indices t
  unfold iblk4
  rw [View.read_apply]
  show V c main_arg7 _ = V c main_arg7 _
  congr 1
  funext a
  apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-- THE WHOLE PRODUCT of the arrays the region finds, on the extended reals. -/
abbrev whole (c : Dev nD) : (⟨2, ![100000, 128]⟩ : Shape).Idx → EReal :=
  Host.dotGeneral (F := Ideal) (φ₁ := .f32) (φ₂ := .f32) Cert.ReferenceIdeal.dot_S100000x128_S128x128_S100000x128_1_0_0_1_n_n none (V c main_v59) (V c main_arg7)

/-- What tile t computes at (p, q) is the whole product's entry at row 5000 t + p. -/
theorem tile_entry (c : Dev nD) (t : Fin cfg4.N) (j : S5000x128.Idx) :
    k4_pay1 (iblk4 V c 0 t) (iblk4 V c 1 t) j = whole V c (((cfg4.win 2).blk t).view.emb j) := by
  obtain ⟨p, q, rfl⟩ : ∃ (p : Fin 5000) (q : Fin 128), j = ix2 p q := ⟨j 0, j 1, eq_ix2 j⟩
  have ht : t.val < 20 := lt_of_lt_of_eq t.isLt N_4
  have hr : 5000 * t.val + p.val < 100000 := by have := p.isLt; omega
  obtain ⟨-, -, -, -, e4, e5⟩ := tile_indices t
  have he : ((cfg4.win 2).blk t).view.emb (ix2 p q) = (ix2 (⟨5000 * t.val + p.val, hr⟩ : Fin 100000) q : (⟨2, ![100000, 128]⟩ : Shape).Idx) := by
    funext a
    apply Fin.ext
    match a with
    | ⟨0, _⟩ => show win4_2.index t (0 : Fin 2) * 5000 + 1 * p.val = 5000 * t.val + p.val; rw [e4]; omega
    | ⟨1, _⟩ => show win4_2.index t (1 : Fin 2) * 128 + 1 * q.val = q.val; rw [e5]; omega
  rw [he]
  refine Eq.trans ?_ (plain_whole.dotGeneral none (V c main_v59) (V c main_arg7) ⟨5000 * t.val + p.val, hr⟩ q).symm
  unfold k4_pay1
  refine (plain_tile.matmul_zero none _ _ p q).trans ?_
  refine Finset.sum_congr rfl fun k _ => ?_
  -- the body casts the left block to its own shape first: the identity
  refine congrArg₂ (fun a b : EReal => a * b) ?_ (right_block V c t k q)
  exact (congrFun (shapeCast_self (iblk4 V c 0 t : Vec Ideal S5000x128 .f32) shapeCasts_S5000x128_S5000x128) (ix2 p k)).trans
    (left_block V c t p k ⟨5000 * t.val + p.val, hr⟩ rfl)

/-- What tile t writes back is block t of the whole product. -/
theorem flushed_eq (c : Dev nD) (t : Fin cfg4.N) :
    (dat4 V c).flushed 2 t = ((cfg4.win 2).blk t).view.read (Elt Ideal) (whole V c) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  funext j
  exact tile_entry V c t j

/-- An index of the result array is in tile t's block iff each coordinate is in the block's range on its axis. -/
theorem mem_block (t : Fin cfg4.N) (i : (⟨2, ![100000, 128]⟩ : Shape).Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Row r lies in tile r / 5000: the tiles cover the array. -/
theorem covered (i : (⟨2, ![100000, 128]⟩ : Shape).Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, e4, e5⟩ := tile_indices t
  have e4' : win4_2.index t (0 : Fin 2) = (i 0).val / 5000 := e4
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; rw [e4']; omega
  | ⟨1, _⟩ => show win4_2.index t (1 : Fin 2) * 128 ≤ (i 1).val ∧ (i 1).val < win4_2.index t (1 : Fin 2) * 128 + 128; rw [e5]; omega

/-- THE REGION'S RESULT: the array it leaves is the host's whole product of the two arrays it finds. -/
theorem result (c : Dev nD) : (dat4 V c).arrAt 2 cfg4.N = whole V c :=
  (dat4 V c).arrAt_eq_of_cover 2 (whole V c) (fun t _ => flushed_eq V c t) (covered)

end Cert.KernelIdeal.Product4

end
-- ==== Proof.Combine5.lean ====
/-
  The third layer's combine step (no rectifier), computed over row tiles, is the host's combine of the whole arrays.

  The region walks twenty tiles of 5000 nodes. At a tile it takes that tile's rows of the aggregated messages and of the
  node features, that tile's entries of the per-node self-loop weight (a column block) and the one bias row, and writes
  (agg + h * weight) + bias back as the tile's 5000 x 128 block. Entry (r, q) of the array the region leaves is therefore
  (agg[r, q] + h[r, q] * s[r]) + b[q], where the weight column is the vector s reshaped and the bias row the vector b
  reshaped: the host's combine of the whole arrays, entry by entry. The two sides group the sums alike, so no law of the
  extended reals beyond reading each operation at an index is used.
-/
import proofs.«129845_j5488968204990_1_alg».proof.Proof.Gen.KernelIdeal.Frame
import proofs.«129845_j5488968204990_1_alg».proof.Proof.LibGcnCombine
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine5

open Cert.KernelIdeal Cert.KernelIdeal.Gen

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- Tile t takes block row t of the messages, the features, the weight column and the result, and the one bias block. -/
theorem tile_indices : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The messages' block at tile t is rows 5000 t … 5000 t + 4999 of the aggregated messages. -/
theorem messages_block (c : Dev nD) (t : Fin cfg5.N) (p : Fin 5000) (q : Fin 128) (r : Fin 100000) (hr : r.val = 5000 * t.val + p.val) :
    (iblk5 V c 0 t : Vec Ideal S5000x128 .f32) (ix2 p q) = (V c main_v73 : (⟨2, ![100000, 128]⟩ : Shape).Idx → EReal) (ix2 r q) := by
  have e : win5_0.index t (0 : Fin 2) = t.val ∧ win5_0.index t (1 : Fin 2) = 0 := by
    have h := tile_indices t; exact ⟨by omega, by omega⟩
  unfold iblk5
  rw [View.read_apply]
  show V c main_v73 _ = V c main_v73 _
  congr 1
  funext a
  apply Fin.ext
  match a with
  | ⟨0, _⟩ => show win5_0.index t (0 : Fin 2) * 5000 + 1 * p.val = r.val; rw [e.1, hr]; omega
  | ⟨1, _⟩ => show win5_0.index t (1 : Fin 2) * 128 + 1 * q.val = q.val; rw [e.2]; omega

/-- The features' block at tile t is the same rows of the node features. -/
theorem features_block (c : Dev nD) (t : Fin cfg5.N) (p : Fin 5000) (q : Fin 128) (r : Fin 100000) (hr : r.val = 5000 * t.val + p.val) :
    (iblk5 V c 1 t : Vec Ideal S5000x128 .f32) (ix2 p q) = (V c main_v60 : (⟨2, ![100000, 128]⟩ : Shape).Idx → EReal) (ix2 r q) := by
  have e : win5_1.index t (0 : Fin 2) = t.val ∧ win5_1.index t (1 : Fin 2) = 0 := by
    have h := tile_indices t; exact ⟨by omega, by omega⟩
  unfold iblk5
  rw [View.read_apply]
  show V c main_v60 _ = V c main_v60 _
  congr 1
  funext a
  apply Fin.ext
  match a with
  | ⟨0, _⟩ => show win5_1.index t (0 : Fin 2) * 5000 + 1 * p.val = r.val; rw [e.1, hr]; omega
  | ⟨1, _⟩ => show win5_1.index t (1 : Fin 2) * 128 + 1 * q.val = q.val; rw [e.2]; omega

/-- The weight block at tile t is the same rows of the weight column. -/
theorem weight_block (c : Dev nD) (t : Fin cfg5.N) (p : Fin 5000)  (r : Fin 100000) (hr : r.val = 5000 * t.val + p.val) :
    (iblk5 V c 2 t : Vec Ideal S5000x1 .f32) (ix2 p (0 : Fin 1)) = (V c main_v27 : (⟨2, ![100000, 1]⟩ : Shape).Idx → EReal) (ix2 r (0 : Fin 1)) := by
  have e : win5_2.index t (0 : Fin 2) = t.val ∧ win5_2.index t (1 : Fin 2) = 0 := by
    have h := tile_indices t; exact ⟨by omega, by omega⟩
  unfold iblk5
  rw [View.read_apply]
  show V c main_v27 _ = V c main_v27 _
  congr 1
  funext a
  apply Fin.ext
  match a with
  | ⟨0, _⟩ => show win5_2.index t (0 : Fin 2) * 5000 + 1 * p.val = r.val; rw [e.1, hr]; omega
  | ⟨1, _⟩ => show win5_2.index t (1 : Fin 2) * 1 + 1 * (0 : Fin 1).val = (0 : Fin 1).val; rw [e.2]; omega

/-- The bias block at every tile is the one bias row. -/
theorem bias_block (c : Dev nD) (t : Fin cfg5.N)  (q : Fin 128)  :
    (iblk5 V c 3 t : Vec Ideal S1x128 .f32) (ix2 (0 : Fin 1) q) = (V c main_v74 : (⟨2, ![1, 128]⟩ : Shape).Idx → EReal) (ix2 (0 : Fin 1) q) := by
  have e : win5_3.index t (0 : Fin 2) = 0 ∧ win5_3.index t (1 : Fin 2) = 0 := by
    have h := tile_indices t; exact ⟨by omega, by omega⟩
  unfold iblk5
  rw [View.read_apply]
  show V c main_v74 _ = V c main_v74 _
  congr 1
  funext a
  apply Fin.ext
  match a with
  | ⟨0, _⟩ => show win5_3.index t (0 : Fin 2) * 1 + 1 * (0 : Fin 1).val = (0 : Fin 1).val; rw [e.1]; rfl
  | ⟨1, _⟩ => show win5_3.index t (1 : Fin 2) * 128 + 1 * q.val = q.val; rw [e.2]; omega

/-- THE HOST'S COMBINE of the arrays the region finds, the weight column and the bias row given as the vectors they are
    reshapes of. -/
abbrev whole (c : Dev nD) (s : (⟨1, ![100000]⟩ : Shape).Idx → EReal) (b : (⟨1, ![128]⟩ : Shape).Idx → EReal)
    (c1 : (⟨1, ![100000]⟩ : Shape).BroadcastsInDim ⟨2, ![100000, 1]⟩ ![0])
    (c2 : (⟨2, ![100000, 1]⟩ : Shape).BroadcastsInDim ⟨2, ![100000, 128]⟩ ![0, 1])
    (b1 : (⟨1, ![128]⟩ : Shape).BroadcastsInDim ⟨2, ![1, 128]⟩ ![1])
    (b2 : (⟨2, ![1, 128]⟩ : Shape).BroadcastsInDim ⟨2, ![100000, 128]⟩ ![0, 1]) :
    (⟨2, ![100000, 128]⟩ : Shape).Idx → EReal :=
  addf (F := Ideal) (φ := .f32)
      (addf (F := Ideal) (φ := .f32) (V c main_v73)
        (mulf (F := Ideal) (φ := .f32) (V c main_v60) (broadcastInDim ⟨2, ![100000, 128]⟩ ![0, 1] c2 (broadcastInDim ⟨2, ![100000, 1]⟩ ![0] c1 s))))
      (broadcastInDim ⟨2, ![100000, 128]⟩ ![0, 1] b2 (broadcastInDim ⟨2, ![1, 128]⟩ ![1] b1 b))

section
variable (c : Dev nD) (s : (⟨1, ![100000]⟩ : Shape).Idx → EReal) (b : (⟨1, ![128]⟩ : Shape).Idx → EReal)
  (ks : (⟨1, ![100000]⟩ : Shape).ShapeCasts ⟨2, ![100000, 1]⟩) (kb : (⟨1, ![128]⟩ : Shape).ShapeCasts ⟨2, ![1, 128]⟩)
  (hs : (V c main_v27 : (⟨2, ![100000, 1]⟩ : Shape).Idx → EReal) = shapeCast ⟨2, ![100000, 1]⟩ s ks)
  (hb : (V c main_v74 : (⟨2, ![1, 128]⟩ : Shape).Idx → EReal) = shapeCast ⟨2, ![1, 128]⟩ b kb)
  (c1 : (⟨1, ![100000]⟩ : Shape).BroadcastsInDim ⟨2, ![100000, 1]⟩ ![0])
  (c2 : (⟨2, ![100000, 1]⟩ : Shape).BroadcastsInDim ⟨2, ![100000, 128]⟩ ![0, 1])
  (b1 : (⟨1, ![128]⟩ : Shape).BroadcastsInDim ⟨2, ![1, 128]⟩ ![1])
  (b2 : (⟨2, ![1, 128]⟩ : Shape).BroadcastsInDim ⟨2, ![100000, 128]⟩ ![0, 1])

include hs hb in
/-- What tile t computes at (p, q) is the host's combine at row 5000 t + p. -/
theorem tile_entry (t : Fin cfg5.N) (j : S5000x128.Idx) :
    k5_pay1 (iblk5 V c 2 t) (iblk5 V c 3 t) (iblk5 V c 0 t) (iblk5 V c 1 t) j
      = whole V c s b c1 c2 b1 b2 (((cfg5.win 4).blk t).view.emb j) := by
  obtain ⟨p, q, rfl⟩ : ∃ (p : Fin 5000) (q : Fin 128), j = ix2 p q := ⟨j 0, j 1, eq_ix2 j⟩
  have ht : t.val < 20 := lt_of_lt_of_eq t.isLt N_5
  have hr : 5000 * t.val + p.val < 100000 := by have := p.isLt; omega
  have e : win5_4.index t (0 : Fin 2) = t.val ∧ win5_4.index t (1 : Fin 2) = 0 := by
    have h := tile_indices t; exact ⟨by omega, by omega⟩
  have he : ((cfg5.win 4).blk t).view.emb (ix2 p q) = (ix2 (⟨5000 * t.val + p.val, hr⟩ : Fin 100000) q : (⟨2, ![100000, 128]⟩ : Shape).Idx) := by
    funext a
    apply Fin.ext
    match a with
    | ⟨0, _⟩ => show win5_4.index t (0 : Fin 2) * 5000 + 1 * p.val = 5000 * t.val + p.val; rw [e.1]; omega
    | ⟨1, _⟩ => show win5_4.index t (1 : Fin 2) * 128 + 1 * q.val = q.val; rw [e.2]; omega
  rw [he]
  unfold k5_pay1
  refine (GcnCombine.tile_entry _ _ _ _ _ _ _ _ _ p q).trans ?_
  refine Eq.trans ?_ (GcnCombine.host_entry (V c main_v73) (V c main_v60) s b c1 c2 b1 b2 ⟨5000 * t.val + p.val, hr⟩ q).symm
  refine congrArg₂ (fun x y : EReal => x + y)
    (congrArg₂ (fun x y : EReal => x + y) (messages_block V c t p q ⟨5000 * t.val + p.val, hr⟩ rfl)
      (congrArg₂ (fun x y : EReal => x * y) (features_block V c t p q ⟨5000 * t.val + p.val, hr⟩ rfl) ?_)) ?_
  · -- the weight column is the vector s reshaped: its entry of row r is s[r]
    exact (weight_block V c t p ⟨5000 * t.val + p.val, hr⟩ rfl).trans
      ((congrFun hs _).trans (Cert.LayoutKeepdims.shapeCast_a_a1_apply s ks ⟨5000 * t.val + p.val, hr⟩ (0 : Fin 1)))
  · -- the bias row is the vector b reshaped: its entry of column q is b[q]
    exact (bias_block V c t q).trans ((congrFun hb _).trans (shapeCast_a_1a_apply b kb (0 : Fin 1) q))

include hs hb in
/-- What tile t writes back is block t of the host's combine. -/
theorem flushed_eq (t : Fin cfg5.N) :
    (dat5 V c).flushed 4 t = ((cfg5.win 4).blk t).view.read (Elt Ideal) (whole V c s b c1 c2 b1 b2) := by
  show (cfg5.win 4).cut (grid5.coords t) ((dat5 V c).after 4 t) = _
  rw [after5_4]
  unfold out5_4
  rw [View.canon_unit_zero zero_offsets]
  simp only [View.ld_unit_zero (S := S5000x128) zero_offsets, View.ld_unit_zero (S := S5000x1) zero_offsets,
    View.ld_unit_zero (S := S1x128) zero_offsets]
  funext j
  exact tile_entry V c s b ks kb hs hb c1 c2 b1 b2 t j

end

/-- An index of the result array is in tile t's block iff each coordinate is in the block's range on its axis. -/
theorem mem_block (t : Fin cfg5.N) (i : (⟨2, ![100000, 128]⟩ : Shape).Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v75).slice (win5_4.rect t)).set ↔ _
  rw [View.set_slice_whole, Rect.mem_set_unit]
  exact Iff.rfl

/-- Row r lies in tile r / 5000: the tiles cover the array. -/
theorem covered (i : (⟨2, ![100000, 128]⟩ : Shape).Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have h := tile_indices t
  have e : win5_4.index t (0 : Fin 2) = (i 0).val / 5000 ∧ win5_4.index t (1 : Fin 2) = 0 :=
    ⟨h.2.2.2.2.2.2.2.2.1, h.2.2.2.2.2.2.2.2.2⟩
  refine ⟨t, flush5_4 t, ?_⟩
  rw [mem_block]
  intro a
  match a with
  | ⟨0, _⟩ => show win5_4.index t (0 : Fin 2) * 5000 ≤ (i 0).val ∧ (i 0).val < win5_4.index t (0 : Fin 2) * 5000 + 5000; rw [e.1]; omega
  | ⟨1, _⟩ => show win5_4.index t (1 : Fin 2) * 128 ≤ (i 1).val ∧ (i 1).val < win5_4.index t (1 : Fin 2) * 128 + 128; rw [e.2]; omega

/-- THE REGION'S RESULT: the array it leaves is the host's combine of the arrays it finds, once the weight column and the
    bias row are known to be reshapes of vectors s and b. -/
theorem result (c : Dev nD) (s : (⟨1, ![100000]⟩ : Shape).Idx → EReal) (b : (⟨1, ![128]⟩ : Shape).Idx → EReal)
    (ks : (⟨1, ![100000]⟩ : Shape).ShapeCasts ⟨2, ![100000, 1]⟩) (kb : (⟨1, ![128]⟩ : Shape).ShapeCasts ⟨2, ![1, 128]⟩)
    (hs : (V c main_v27 : (⟨2, ![100000, 1]⟩ : Shape).Idx → EReal) = shapeCast ⟨2, ![100000, 1]⟩ s ks)
    (hb : (V c main_v74 : (⟨2, ![1, 128]⟩ : Shape).Idx → EReal) = shapeCast ⟨2, ![1, 128]⟩ b kb)
    (c1 : (⟨1, ![100000]⟩ : Shape).BroadcastsInDim ⟨2, ![100000, 1]⟩ ![0])
    (c2 : (⟨2, ![100000, 1]⟩ : Shape).BroadcastsInDim ⟨2, ![100000, 128]⟩ ![0, 1])
    (b1 : (⟨1, ![128]⟩ : Shape).BroadcastsInDim ⟨2, ![1, 128]⟩ ![1])
    (b2 : (⟨2, ![1, 128]⟩ : Shape).BroadcastsInDim ⟨2, ![100000, 128]⟩ ![0, 1]) :
    (dat5 V c).arrAt 4 cfg5.N = whole V c s b c1 c2 b1 b2 :=
  (dat5 V c).arrAt_eq_of_cover 4 (whole V c s b c1 c2 b1 b2)
    (fun t _ => flushed_eq V c s b ks kb hs hb c1 c2 b1 b2 t) covered

end Cert.KernelIdeal.Combine5

end
-- ==== Proof.ChainC.lean ====
/-
  The third layer, boundary by boundary: the product h2 @ W3 after the fifth region, the aggregated messages after the
  fourth host stretch, the combine (no rectifier) after the sixth region — each a stage of the reference program applied
  to the launch arguments.
-/
import proofs.«129845_j5488968204990_1_alg».proof.Proof.ChainB
import proofs.«129845_j5488968204990_1_alg».proof.Proof.Product4
import proofs.«129845_j5488968204990_1_alg».proof.Proof.Combine5
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

-- the launch contents of the eleven argument arrays on core c
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)

/-! ## After the fifth region: h2 @ W3 -/

theorem arg7_7 : W7 m ρ c (Proc.devRef .tc main_arg7) = a7 :=
  (Kept.region3 m ρ c main_arg7 (by decide)).trans ((Kept.host3 m ρ c main_arg7 (by decide)).trans ((Kept.region2 m ρ c main_arg7 (by decide)).trans ((Kept.region1 m ρ c main_arg7 (by decide)).trans ((Kept.host1 m ρ c main_arg7 (by decide)).trans ((Kept.region0 m ρ c main_arg7 (by decide)).trans ((Kept.host0 m ρ c main_arg7 (by decide)).trans (rfl)))))))

theorem feat3_8 : W8 m ρ c (Proc.devRef .tc main_v60) = val_main_v71 (F := Ideal) a0 a1 a3 a4 a5 a6 a7 := by
  refine (W8_arr m ρ c 2).trans ((Product4.result (V7 m ρ) c).trans ?_)
  show Host.dotGeneral (F := Ideal) _ none (W7 m ρ c (Proc.devRef .tc main_v59)) (W7 m ρ c (Proc.devRef .tc main_arg7)) = _
  rw [out2_7, arg7_7]; rfl

theorem src_8 : W8 m ρ c (Proc.devRef .tc main_v1) = val_main_v1 (F := Ideal) a1 :=
  (Kept.region4 m ρ c main_v1 (by decide)).trans ((Kept.region3 m ρ c main_v1 (by decide)).trans ((Kept.host3 m ρ c main_v1 (by decide)).trans (src_5 m ρ c)))
theorem dst_8 : W8 m ρ c (Proc.devRef .tc main_v3) = val_main_v3 (F := Ideal) a1 :=
  (Kept.region4 m ρ c main_v3 (by decide)).trans ((Kept.region3 m ρ c main_v3 (by decide)).trans ((Kept.host3 m ρ c main_v3 (by decide)).trans (dst_5 m ρ c)))
theorem coef_8 : W8 m ρ c (Proc.devRef .tc main_v25) = val_main_v25 (F := Ideal) a1 :=
  (Kept.region4 m ρ c main_v25 (by decide)).trans ((Kept.region3 m ρ c main_v25 (by decide)).trans ((Kept.host3 m ρ c main_v25 (by decide)).trans (coef_5 m ρ c)))
theorem arg8_8 : W8 m ρ c (Proc.devRef .tc main_arg8) = a8 :=
  (Kept.region4 m ρ c main_arg8 (by decide)).trans ((Kept.region3 m ρ c main_arg8 (by decide)).trans ((Kept.host3 m ρ c main_arg8 (by decide)).trans ((Kept.region2 m ρ c main_arg8 (by decide)).trans ((Kept.region1 m ρ c main_arg8 (by decide)).trans ((Kept.host1 m ρ c main_arg8 (by decide)).trans ((Kept.region0 m ρ c main_arg8 (by decide)).trans ((Kept.host0 m ρ c main_arg8 (by decide)).trans (rfl))))))))

/-! ## After the fourth host stretch: the aggregated messages -/

theorem agg3_9 : W9 m ρ c (Proc.devRef .tc main_v73) = val_main_v84 (F := Ideal) a0 a1 a3 a4 a5 a6 a7 := by
  dsimp only [W9, hostOps5]; after_results_simp
  rw [src_8, dst_8, coef_8, feat3_8]; rfl

theorem bias3_9 : W9 m ρ c (Proc.devRef .tc main_v74) = shapeCast S1x128 a8 shapeCasts_S128_S1x128 := by
  dsimp only [W9, hostOps5]; after_results_simp
  rw [arg8_8]; rfl

theorem feat3_9 : W9 m ρ c (Proc.devRef .tc main_v60) = val_main_v71 (F := Ideal) a0 a1 a3 a4 a5 a6 a7 :=
  (Kept.host5 m ρ c main_v60 (by decide)).trans (feat3_8 m ρ c)
theorem selfw_9 : W9 m ρ c (Proc.devRef .tc main_v27) = shapeCast S100000x1 (val_main_v26 (F := Ideal) a1) shapeCasts_S100000_S100000x1 :=
  (Kept.host5 m ρ c main_v27 (by decide)).trans ((Kept.region4 m ρ c main_v27 (by decide)).trans ((Kept.region3 m ρ c main_v27 (by decide)).trans (selfw_6 m ρ c)))

/-! ## After the sixth region: the third layer's output -/

theorem out3_10 : W10 m ρ c (Proc.devRef .tc main_v75) = val_main_v91 (F := Ideal) a0 a1 a3 a4 a5 a6 a7 a8 := by
  refine (W10_arr m ρ c 4).trans ((Combine5.result (V9 m ρ) c (val_main_v26 (F := Ideal) a1) a8
    shapeCasts_S100000_S100000x1 shapeCasts_S128_S1x128 (selfw_9 m ρ c) (bias3_9 m ρ c)
    Cert.ReferenceIdeal.Facts₀.bcast_S100000_S100000x1_0 Cert.ReferenceIdeal.Facts₀.bcast_S100000x1_S100000x128_0_1
    Cert.ReferenceIdeal.Facts₀.bcast_S128_S1x128_1 Cert.ReferenceIdeal.Facts₀.bcast_S1x128_S100000x128_0_1).trans ?_)
  unfold Combine5.whole
  show addf (F := Ideal) (φ := .f32) (addf (F := Ideal) (φ := .f32) (W9 m ρ c (Proc.devRef .tc main_v73))
    (mulf (F := Ideal) (φ := .f32) (W9 m ρ c (Proc.devRef .tc main_v60)) _)) _ = _
  rw [agg3_9, feat3_9]; rfl

end Cert.KernelIdeal.Chain

end
-- ==== Proof.Head6.lean ====
/-
  The linear head, computed in one tile, is the host's dense layer.

  The last region has a single tile holding the whole pooled matrix [5000, 128], the whole weight matrix [128, 19] and the
  bias as a [1, 19] row. It multiplies the two matrices, narrowed to bf16, in the matrix unit started from the zero splat,
  and adds the bias row broadcast down the 5000 rows. On the extended reals entry (e, k) is the sum over j of
  pooled[e, j] * W[j, k], plus b[k], the bias row being the vector b reshaped: the host's product plus the broadcast bias.
-/
import proofs.«129845_j5488968204990_1_alg».proof.Proof.Gen.KernelIdeal.Frame
import proofs.«129845_j5488968204990_1_alg».proof.Proof.Gen.ReferenceIdeal
import proofs.«129845_j5488968204990_1_alg».proof.Proof.LibDotInnerHost
import proofs.«129845_j5488968204990_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Head6

open Cert.KernelIdeal Cert.KernelIdeal.Gen Idealize.ShloMosaic.DotInner

-- the buffers' contents when the region is entered: any
variable (V : (c : Dev nD) → (b : Ref sig .tc) → Buf (Elt Ideal) ((c : Thread nD τ).loc b))

theorem zero_offsets : (![0, 0] : Fin 2 → Nat) = fun _ => 0 := funext fun a => by fin_cases a <;> rfl

/-- The tile's product is rows by columns: one contracted axis of extent 128. -/
theorem plain_tile : Plain dot_S5000x128_S128x19_S5000x19_1_0_0_1_n_n :=
  plain_record dot_S5000x128_S128x19_S5000x19_1_0_0_1_n_n, S5000x128, S128x19

/-- So is the host's. -/
theorem plain_whole : Plain Cert.ReferenceIdeal.dot_S5000x128_S128x19_S5000x19_1_0_0_1_n_n :=
  plain_record Cert.ReferenceIdeal.dot_S5000x128_S128x19_S5000x19_1_0_0_1_n_n, Cert.ReferenceIdeal.S5000x128, Cert.ReferenceIdeal.S128x19

/-- The one tile takes block (0, 0) of every array: each block is its whole array. -/
theorem tile_indices : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The first block is the pooled matrix. -/
theorem pooled_block (c : Dev nD) (t : Fin cfg6.N) (p : Fin 5000) (k : Fin 128) :
    (iblk6 V c 0 t : Vec Ideal S5000x128 .f32) (ix2 p k) = (V c main_v87 : (⟨2, ![5000, 128]⟩ : Shape).Idx → EReal) (ix2 p k) := by
  have e : win6_0.index t (0 : Fin 2) = 0 ∧ win6_0.index t (1 : Fin 2) = 0 := by
    have h := tile_indices t; exact ⟨by omega, by omega⟩
  unfold iblk6
  rw [View.read_apply]
  show V c main_v87 _ = V c main_v87 _
  congr 1
  funext a
  apply Fin.ext
  match a with
  | ⟨0, _⟩ => show win6_0.index t (0 : Fin 2) * 5000 + 1 * (p).val = (p).val; rw [e.1]; omega
  | ⟨1, _⟩ => show win6_0.index t (1 : Fin 2) * 128 + 1 * (k).val = (k).val; rw [e.2]; omega

/-- The second block is the weight matrix. -/
theorem weights_block (c : Dev nD) (t : Fin cfg6.N) (k : Fin 128) (q : Fin 19) :
    (iblk6 V c 1 t : Vec Ideal S128x19 .f32) (ix2 k q) = (V c main_arg9 : (⟨2, ![128, 19]⟩ : Shape).Idx → EReal) (ix2 k q) := by
  have e : win6_1.index t (0 : Fin 2) = 0 ∧ win6_1.index t (1 : Fin 2) = 0 := by
    have h := tile_indices t; exact ⟨by omega, by omega⟩
  unfold iblk6
  rw [View.read_apply]
  show V c main_arg9 _ = V c main_arg9 _
  congr 1
  funext a
  apply Fin.ext
  match a with
  | ⟨0, _⟩ => show win6_1.index t (0 : Fin 2) * 128 + 1 * (k).val = (k).val; rw [e.1]; omega
  | ⟨1, _⟩ => show win6_1.index t (1 : Fin 2) * 19 + 1 * (q).val = (q).val; rw [e.2]; omega

/-- The third block is the bias row. -/
theorem bias_block (c : Dev nD) (t : Fin cfg6.N) (q : Fin 19) :
    (iblk6 V c 2 t : Vec Ideal S1x19 .f32) (ix2 (0 : Fin 1) q) = (V c main_v88 : (⟨2, ![1, 19]⟩ : Shape).Idx → EReal) (ix2 (0 : Fin 1) q) := by
  have e : win6_2.index t (0 : Fin 2) = 0 ∧ win6_2.index t (1 : Fin 2) = 0 := by
    have h := tile_indices t; exact ⟨by omega, by omega⟩
  unfold iblk6
  rw [View.read_apply]
  show V c main_v88 _ = V c main_v88 _
  congr 1
  funext a
  apply Fin.ext
  match a with
  | ⟨0, _⟩ => show win6_2.index t (0 : Fin 2) * 1 + 1 * ((0 : Fin 1)).val = ((0 : Fin 1)).val; rw [e.1]; omega
  | ⟨1, _⟩ => show win6_2.index t (1 : Fin 2) * 19 + 1 * (q).val = (q).val; rw [e.2]; omega

/-- THE HOST'S DENSE LAYER on the arrays the region finds, the bias row given as the vector it is a reshape of. -/
abbrev whole (c : Dev nD) (b : (⟨1, ![19]⟩ : Shape).Idx → EReal)
    (b1 : (⟨1, ![19]⟩ : Shape).BroadcastsInDim ⟨2, ![1, 19]⟩ ![1])
    (b2 : (⟨2, ![1, 19]⟩ : Shape).BroadcastsInDim ⟨2, ![5000, 19]⟩ ![0, 1]) : (⟨2, ![5000, 19]⟩ : Shape).Idx → EReal :=
  addf (F := Ideal) (φ := .f32)
    (Host.dotGeneral (F := Ideal) (φ₁ := .f32) (φ₂ := .f32) Cert.ReferenceIdeal.dot_S5000x128_S128x19_S5000x19_1_0_0_1_n_n none
      (V c main_v87) (V c main_arg9))
    (broadcastInDim ⟨2, ![5000, 19]⟩ ![0, 1] b2 (broadcastInDim ⟨2, ![1, 19]⟩ ![1] b1 b))

section
variable (c : Dev nD) (b : (⟨1, ![19]⟩ : Shape).Idx → EReal) (kb : (⟨1, ![19]⟩ : Shape).ShapeCasts ⟨2, ![1, 19]⟩)
  (hb : (V c main_v88 : (⟨2, ![1, 19]⟩ : Shape).Idx → EReal) = shapeCast ⟨2, ![1, 19]⟩ b kb)
  (b1 : (⟨1, ![19]⟩ : Shape).BroadcastsInDim ⟨2, ![1, 19]⟩ ![1])
  (b2 : (⟨2, ![1, 19]⟩ : Shape).BroadcastsInDim ⟨2, ![5000, 19]⟩ ![0, 1])

include hb in
/-- What the tile computes at (p, q) is the host's dense layer at (p, q). -/
theorem tile_entry (t : Fin cfg6.N) (j : S5000x19.Idx) :
    k6_pay1 (iblk6 V c 0 t) (iblk6 V c 1 t) (iblk6 V c 2 t) j = whole V c b b1 b2 (((cfg6.win 3).blk t).view.emb j) := by
  obtain ⟨p, q, rfl⟩ : ∃ (p : Fin 5000) (q : Fin 19), j = ix2 p q := ⟨j 0, j 1, eq_ix2 j⟩
  have e : win6_3.index t (0 : Fin 2) = 0 ∧ win6_3.index t (1 : Fin 2) = 0 := by
    have h := tile_indices t; exact ⟨by omega, by omega⟩
  have he : ((cfg6.win 3).blk t).view.emb (ix2 p q) = (ix2 p q : (⟨2, ![5000, 19]⟩ : Shape).Idx) := by
    funext a
    apply Fin.ext
    match a with
    | ⟨0, _⟩ => show win6_3.index t (0 : Fin 2) * 5000 + 1 * p.val = p.val; rw [e.1]; omega
    | ⟨1, _⟩ => show win6_3.index t (1 : Fin 2) * 19 + 1 * q.val = q.val; rw [e.2]; omega
  rw [he]
  refine Eq.trans ?_ (DenseLayer.dense_apply plain_whole (V c main_v87) (V c main_arg9) b b1 b2 p q).symm
  unfold k6_pay1
  refine (addf_apply _ _ _).trans ?_
  refine congrArg₂ (fun x y : EReal => x + y) ?_ ?_
  · refine (plain_tile.matmul_zero none _ _ p q).trans ?_
    refine Finset.sum_congr rfl fun k _ => ?_
    -- the body casts the pooled block to its own shape first: the identity
    refine congrArg₂ (fun x y : EReal => x * y) ?_ (weights_block V c t k q)
    exact (congrFun (shapeCast_self (iblk6 V c 0 t : Vec Ideal S5000x128 .f32) shapeCasts_S5000x128_S5000x128) (ix2 p k)).trans
      (pooled_block V c t p k)
  · -- the bias row, cast to its own shape and broadcast down, read at (p, q) is its entry of column q: b[q]
    refine (broadcastTo_1b_ab_apply _ _ p q).trans ?_
    refine (congrFun (shapeCast_self (iblk6 V c 2 t : Vec Ideal S1x19 .f32) shapeCasts_S1x19_S1x19) (ix2 (0 : Fin 1) q)).trans ?_
    exact (bias_block V c t q).trans ((congrFun hb _).trans (shapeCast_a_1a_apply b kb (0 : Fin 1) q))

include hb in
/-- What the tile writes back is the host's dense layer read through the one block. -/
theorem flushed_eq (t : Fin cfg6.N) :
    (dat6 V c).flushed 3 t = ((cfg6.win 3).blk t).view.read (Elt Ideal) (whole V c b b1 b2) := by
  show (cfg6.win 3).cut (grid6.coords t) ((dat6 V c).after 3 t) = _
  rw [after6_3]
  unfold out6_3
  rw [View.canon_unit_zero zero_offsets]
  simp only [View.ld_unit_zero (S := S5000x128) zero_offsets, View.ld_unit_zero (S := S128x19) zero_offsets,
    View.ld_unit_zero (S := S1x19) zero_offsets]
  funext j
  exact tile_entry V c b kb hb b1 b2 t j

end

/-- An index of the result array is in the tile's block iff each coordinate is in the block's range on its axis. -/
theorem mem_block (t : Fin cfg6.N) (i : (⟨2, ![5000, 19]⟩ : Shape).Idx) :
    i ∈ ((cfg6.win 3).blk t).view.set ↔ ∀ a : Fin 2, win6_3.index t a * S5000x19.size a ≤ (i a).val ∧ (i a).val < win6_3.index t a * S5000x19.size a + S5000x19.size a := by
  show i ∈ ((View.whole main_v89).slice (win6_3.rect t)).set ↔ _
  rw [View.set_slice_whole, Rect.mem_set_unit]
  exact Iff.rfl

/-- The one tile's block is the whole array. -/
theorem covered (i : (⟨2, ![5000, 19]⟩ : Shape).Idx) :
    ∃ t : Fin cfg6.N, (cfg6.win 3).flush t = true ∧ i ∈ ((cfg6.win 3).blk t).view.set := by
  have hi0 : (i 0).val < 5000 := (i 0).isLt
  have hi1 : (i 1).val < 19 := (i 1).isLt
  have e : win6_3.index t6_0 (0 : Fin 2) = 0 ∧ win6_3.index t6_0 (1 : Fin 2) = 0 := by
    have h := tile_indices t6_0; exact ⟨by omega, by omega⟩
  refine ⟨t6_0, flush6_3 t6_0, ?_⟩
  rw [mem_block]
  intro a
  match a with
  | ⟨0, _⟩ => show win6_3.index t6_0 (0 : Fin 2) * 5000 ≤ (i 0).val ∧ (i 0).val < win6_3.index t6_0 (0 : Fin 2) * 5000 + 5000; rw [e.1]; omega
  | ⟨1, _⟩ => show win6_3.index t6_0 (1 : Fin 2) * 19 ≤ (i 1).val ∧ (i 1).val < win6_3.index t6_0 (1 : Fin 2) * 19 + 19; rw [e.2]; omega

/-- THE REGION'S RESULT: the array it leaves is the host's dense layer of the arrays it finds, once the bias row is known
    to be the reshape of a vector b. -/
theorem result (c : Dev nD) (b : (⟨1, ![19]⟩ : Shape).Idx → EReal) (kb : (⟨1, ![19]⟩ : Shape).ShapeCasts ⟨2, ![1, 19]⟩)
    (hb : (V c main_v88 : (⟨2, ![1, 19]⟩ : Shape).Idx → EReal) = shapeCast ⟨2, ![1, 19]⟩ b kb)
    (b1 : (⟨1, ![19]⟩ : Shape).BroadcastsInDim ⟨2, ![1, 19]⟩ ![1])
    (b2 : (⟨2, ![1, 19]⟩ : Shape).BroadcastsInDim ⟨2, ![5000, 19]⟩ ![0, 1]) :
    (dat6 V c).arrAt 3 cfg6.N = whole V c b b1 b2 :=
  (dat6 V c).arrAt_eq_of_cover 3 (whole V c b b1 b2) (fun t _ => flushed_eq V c b kb hb b1 b2 t) covered

end Cert.KernelIdeal.Head6

end
-- ==== Proof.ChainD.lean ====
/-
  The pooling and the head: the mean of each graph's node rows after the last host stretch, and the linear head after the
  last region. The program's result buffer at the last boundary is the reference program's result stage applied to the
  launch arguments.
-/
import proofs.«129845_j5488968204990_1_alg».proof.Proof.ChainC
import proofs.«129845_j5488968204990_1_alg».proof.Proof.Head6
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

-- the launch contents of the eleven argument arrays on core c
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)

/-! ## After the last host stretch: the pooled features -/

theorem arg2_10 : W10 m ρ c (Proc.devRef .tc main_arg2) = a2 :=
  (Kept.region5 m ρ c main_arg2 (by decide)).trans ((Kept.host5 m ρ c main_arg2 (by decide)).trans ((Kept.region4 m ρ c main_arg2 (by decide)).trans ((Kept.region3 m ρ c main_arg2 (by decide)).trans ((Kept.host3 m ρ c main_arg2 (by decide)).trans ((Kept.region2 m ρ c main_arg2 (by decide)).trans ((Kept.region1 m ρ c main_arg2 (by decide)).trans ((Kept.host1 m ρ c main_arg2 (by decide)).trans ((Kept.region0 m ρ c main_arg2 (by decide)).trans ((Kept.host0 m ρ c main_arg2 (by decide)).trans (rfl))))))))))
theorem arg10_10 : W10 m ρ c (Proc.devRef .tc main_arg10) = a10 :=
  (Kept.region5 m ρ c main_arg10 (by decide)).trans ((Kept.host5 m ρ c main_arg10 (by decide)).trans ((Kept.region4 m ρ c main_arg10 (by decide)).trans ((Kept.region3 m ρ c main_arg10 (by decide)).trans ((Kept.host3 m ρ c main_arg10 (by decide)).trans ((Kept.region2 m ρ c main_arg10 (by decide)).trans ((Kept.region1 m ρ c main_arg10 (by decide)).trans ((Kept.host1 m ρ c main_arg10 (by decide)).trans ((Kept.region0 m ρ c main_arg10 (by decide)).trans ((Kept.host0 m ρ c main_arg10 (by decide)).trans (rfl))))))))))
theorem arg9_11 : W11 m ρ c (Proc.devRef .tc main_arg9) = a9 :=
  (Kept.host6 m ρ c main_arg9 (by decide)).trans ((Kept.region5 m ρ c main_arg9 (by decide)).trans ((Kept.host5 m ρ c main_arg9 (by decide)).trans ((Kept.region4 m ρ c main_arg9 (by decide)).trans ((Kept.region3 m ρ c main_arg9 (by decide)).trans ((Kept.host3 m ρ c main_arg9 (by decide)).trans ((Kept.region2 m ρ c main_arg9 (by decide)).trans ((Kept.region1 m ρ c main_arg9 (by decide)).trans ((Kept.host1 m ρ c main_arg9 (by decide)).trans ((Kept.region0 m ρ c main_arg9 (by decide)).trans ((Kept.host0 m ρ c main_arg9 (by decide)).trans (rfl)))))))))))

theorem pooled_11 : W11 m ρ c (Proc.devRef .tc main_v87) = val_main_v103 (F := Ideal) a0 a1 a2 a3 a4 a5 a6 a7 a8 := by
  dsimp only [W11, hostOps6]; after_results_simp
  rw [arg2_10, out3_10]; rfl

theorem biasl_11 : W11 m ρ c (Proc.devRef .tc main_v88) = shapeCast S1x19 a10 shapeCasts_S19_S1x19 := by
  dsimp only [W11, hostOps6]; after_results_simp
  rw [arg10_10]; rfl

/-! ## After the last region: the result -/

/-- THE KERNEL PROGRAM'S RESULT is the reference program's result stage of the launch arguments. -/
theorem result_12 : W12 m ρ c (Proc.devRef .tc main_v89)
    = val_main_v107 (F := Ideal) a0 a1 a2 a3 a4 a5 a6 a7 a8 a9 a10 := by
  refine (W12_arr m ρ c 3).trans ((Head6.result (V11 m ρ) c a10 shapeCasts_S19_S1x19 (biasl_11 m ρ c)
    Cert.ReferenceIdeal.Facts₀.bcast_S19_S1x19_1 Cert.ReferenceIdeal.Facts₀.bcast_S1x19_S5000x19_0_1).trans ?_)
  unfold Head6.whole
  show addf (F := Ideal) (φ := .f32) (Host.dotGeneral (F := Ideal) _ none (W11 m ρ c (Proc.devRef .tc main_v87))
    (W11 m ρ c (Proc.devRef .tc main_arg9))) _ = _
  rw [pooled_11, arg9_11]; rfl

end Cert.KernelIdeal.Chain

end
-- ==== Proof.lean ====
/-
  A three-layer graph convolution with mean pooling and a linear head, tiled, against its plain reference.

  Both programs compute, from node features x, an edge list and a graph assignment: deg = (number of edges into a node) + 1,
  the per-edge coefficient deg[src]^(-1/2) * deg[dst]^(-1/2) and the self-loop weight 1/deg; three layers
  h <- (sum over edges into a node of coefficient * (h W)[src]) + (h W) * weight + b, the first two rectified; the mean of
  each graph's node rows; and a final dense layer. The kernel program differs from the reference in three places only: the
  products h W and the final product run in the matrix unit over bf16-narrowed operands, tile by tile over the nodes; the
  combine step (messages + self loop + bias, rectified) runs tile by tile with the weight held as a column and the bias as
  a row; everything else — the gathers, the scatter-adds, the reciprocal square root, the division — is the same host
  operation in both. On the extended reals narrowing is the identity, a tile's product is the whole product restricted to
  the tile's rows, and the combine reads the same at every entry, with the sums grouped alike on both sides; so no law
  that needs finiteness is used, and the precondition is never opened.

  The three frames are the generated ones (the reference's is its generated run with the result dropped); the idealizing
  pass rewrote nothing, so its ledger is empty; and the two idealized programs end with equal results because the kernel
  program's result buffer at its last boundary is the reference's result stage applied to the launch arguments.
-/
import proofs.«129845_j5488968204990_1_alg».proof.Defs
import proofs.«129845_j5488968204990_1_alg».proof.Proof.Gen.Kernel
import proofs.«129845_j5488968204990_1_alg».proof.Proof.Gen.Kernel.Frame
import proofs.«129845_j5488968204990_1_alg».proof.Proof.Gen.KernelIdeal
import proofs.«129845_j5488968204990_1_alg».proof.Proof.Gen.KernelIdeal.Frame
import proofs.«129845_j5488968204990_1_alg».proof.Proof.Gen.ReferenceIdeal
import proofs.«129845_j5488968204990_1_alg».proof.Proof.Gen.Pre_finite_inputs
import proofs.«129845_j5488968204990_1_alg».proof.Proof.Gen.ReferenceIdeal.Run
import proofs.«129845_j5488968204990_1_alg».proof.Proof.Gen.ReferenceIdeal.Read
import proofs.«129845_j5488968204990_1_alg».proof.Proof.KernelRun
import proofs.«129845_j5488968204990_1_alg».proof.Proof.ChainD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no tiled region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- From memories that agree on the arguments both idealized programs end with the reference's result stage of those
    arguments in their result buffers. -/
theorem algebraic : Cert.algebraic_KernelIdeal_ReferenceIdeal := by
  intro m ρ m' ρ' _ hagree
  refine ⟨fun c => Cert.KernelIdeal.Gen.W12 m ρ c (Proc.devRef .tc Cert.KernelIdeal.main_v89),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v107 m' c
    = Cert.KernelIdeal.Gen.W12 m ρ c (Proc.devRef .tc Cert.KernelIdeal.main_v89)
  rw [Cert.ReferenceIdeal.Read.val_main_v107_eq, Cert.KernelIdeal.Chain.result_12, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
